-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : IVec S2x1600000 32) (main_arg2 : FVec F S128x128 .f32) (main_arg3 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S1700000x128 : Shape := ⟨2, ![1700000, 128]⟩
abbrev S1x128 : Shape := ⟨2, ![1, 128]⟩
abbrev S5000x128 : Shape := ⟨2, ![5000, 128]⟩
abbrev S5000x1 : Shape := ⟨2, ![5000, 1]⟩

abbrev nBuf : Space → Nat
  | .hbm => 77
  | .vmem => 8
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S100000x128, .f32⟩
  | .hbm, ⟨27, _⟩ => ⟨S100000x128, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000x128, .f32⟩
  | .hbm, ⟨37, _⟩ => ⟨S_, .f32⟩
  | .hbm, ⟨38, _⟩ => ⟨S100000x128, .f32⟩
  | .hbm, ⟨39, _⟩ => ⟨S1700000x1, .i32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x128, .f32⟩
  | .hbm, ⟨54, _⟩ => ⟨S_, .f32⟩
  | .hbm, ⟨55, _⟩ => ⟨S100000x128, .f32⟩
  | .hbm, ⟨56, _⟩ => ⟨S1700000x1, .i32⟩
  | .hbm, ⟨57, _⟩ => ⟨S100000x128, .f32⟩
  | .hbm, ⟨58, _⟩ => ⟨S100000x128, .f32⟩
  | .hbm, ⟨59, _⟩ => ⟨S100000x128, .f32⟩
  | .hbm, ⟨60, _⟩ => ⟨S100000x128, .f32⟩
  | .hbm, ⟨61, _⟩ => ⟨S100000x128, .f32⟩
  | .hbm, ⟨62, _⟩ => ⟨S_, .i32⟩
  | .hbm, ⟨63, _⟩ => ⟨S1700000, .i32⟩
  | .hbm, ⟨64, _⟩ => ⟨S1700000, .i1⟩
  | .hbm, ⟨65, _⟩ => ⟨S_, .i32⟩
  | .hbm, ⟨66, _⟩ => ⟨S1700000, .i32⟩
  | .hbm, ⟨67, _⟩ => ⟨S1700000, .i32⟩
  | .hbm, ⟨68, _⟩ => ⟨S1700000, .i32⟩
  | .hbm, ⟨69, _⟩ => ⟨S1700000x1, .i32⟩
  | .hbm, ⟨70, _⟩ => ⟨S1700000x128, .f32⟩
  | .hbm, ⟨71, _⟩ => ⟨S_, .f32⟩
  | .hbm, ⟨72, _⟩ => ⟨S100000x128, .f32⟩
  | .hbm, ⟨73, _⟩ => ⟨S1700000x1, .i32⟩
  | .hbm, ⟨74, _⟩ => ⟨S100000x128, .f32⟩
  | .hbm, ⟨75, _⟩ => ⟨S1x128, .f32⟩
  | .hbm, ⟨76, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_5 : Ref sig .tc := ⟨.hbm, 45, rfl⟩
abbrev main_v32 : Ref sig .tc := ⟨.hbm, 46, rfl⟩
abbrev main_v33 : Ref sig .tc := ⟨.hbm, 47, rfl⟩
abbrev main_c_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_c_8 : Ref sig .tc := ⟨.hbm, 62, rfl⟩
abbrev main_v46 : Ref sig .tc := ⟨.hbm, 63, rfl⟩
abbrev main_v47 : Ref sig .tc := ⟨.hbm, 64, rfl⟩
abbrev main_c_9 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_10 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1700000x1_S1700000_n_0_0_1_wf : ScatterDims.WF S100000 S1700000x1 S1700000 [] [0] [0] 1
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v55) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v56) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v57) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 97
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000x128, .f32⟩
  | .hbm, ⟨53, _⟩ => ⟨S1700000x1, .f32⟩
  | .hbm, ⟨54, _⟩ => ⟨S1700000x128, .f32⟩
  | .hbm, ⟨55, _⟩ => ⟨S1700000x128, .f32⟩
  | .hbm, ⟨56, _⟩ => ⟨S_, .f32⟩
  | .hbm, ⟨57, _⟩ => ⟨S100000x128, .f32⟩
  | .hbm, ⟨58, _⟩ => ⟨S1700000x1, .i32⟩
  | .hbm, ⟨59, _⟩ => ⟨S100000x128, .f32⟩
  | .hbm, ⟨60, _⟩ => ⟨S_, .i32⟩
  | .hbm, ⟨61, _⟩ => ⟨S1700000, .i32⟩
  | .hbm, ⟨62, _⟩ => ⟨S1700000, .i1⟩
  | .hbm, ⟨63, _⟩ => ⟨S_, .i32⟩
  | .hbm, ⟨64, _⟩ => ⟨S1700000, .i32⟩
  | .hbm, ⟨65, _⟩ => ⟨S1700000, .i32⟩
  | .hbm, ⟨66, _⟩ => ⟨S1700000, .i32⟩
  | .hbm, ⟨67, _⟩ => ⟨S1700000x1, .i32⟩
  | .hbm, ⟨68, _⟩ => ⟨S1700000x128, .f32⟩
  | .hbm, ⟨69, _⟩ => ⟨S1700000x1, .f32⟩
  | .hbm, ⟨70, _⟩ => ⟨S1700000x128, .f32⟩
  | .hbm, ⟨71, _⟩ => ⟨S1700000x128, .f32⟩
  | .hbm, ⟨72, _⟩ => ⟨S_, .f32⟩
  | .hbm, ⟨73, _⟩ => ⟨S100000x128, .f32⟩
  | .hbm, ⟨74, _⟩ => ⟨S1700000x1, .i32⟩
  | .hbm, ⟨75, _⟩ => ⟨S100000x128, .f32⟩
  | .hbm, ⟨76, _⟩ => ⟨S_, .i32⟩
  | .hbm, ⟨77, _⟩ => ⟨S1700000, .i32⟩
  | .hbm, ⟨78, _⟩ => ⟨S1700000, .i1⟩
  | .hbm, ⟨79, _⟩ => ⟨S_, .i32⟩
  | .hbm, ⟨80, _⟩ => ⟨S1700000, .i32⟩
  | .hbm, ⟨81, _⟩ => ⟨S1700000, .i32⟩
  | .hbm, ⟨82, _⟩ => ⟨S1700000, .i32⟩
  | .hbm, ⟨83, _⟩ => ⟨S1700000x1, .i32⟩
  | .hbm, ⟨84, _⟩ => ⟨S1700000x128, .f32⟩
  | .hbm, ⟨85, _⟩ => ⟨S1700000x1, .f32⟩
  | .hbm, ⟨86, _⟩ => ⟨S1700000x128, .f32⟩
  | .hbm, ⟨87, _⟩ => ⟨S1700000x128, .f32⟩
  | .hbm, ⟨88, _⟩ => ⟨S_, .f32⟩
  | .hbm, ⟨89, _⟩ => ⟨S100000x128, .f32⟩
  | .hbm, ⟨90, _⟩ => ⟨S1700000x1, .i32⟩
  | .hbm, ⟨91, _⟩ => ⟨S100000x128, .f32⟩
  | .hbm, ⟨92, _⟩ => ⟨S128x128, .f32⟩
  | .hbm, ⟨93, _⟩ => ⟨S100000x128, .f32⟩
  | .hbm, ⟨94, _⟩ => ⟨S1x128, .f32⟩
  | .hbm, ⟨95, _⟩ => ⟨S100000x128, .f32⟩
  | .hbm, ⟨96, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_c_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_c_9 : Ref sig .tc := ⟨.hbm, 60, rfl⟩
abbrev main_v43 : Ref sig .tc := ⟨.hbm, 61, rfl⟩
abbrev main_v44 : Ref sig .tc := ⟨.hbm, 62, rfl⟩
abbrev main_c_10 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_11 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_c_12 : Ref sig .tc := ⟨.hbm, 76, rfl⟩
abbrev main_v56 : Ref sig .tc := ⟨.hbm, 77, rfl⟩
abbrev main_v57 : Ref sig .tc := ⟨.hbm, 78, rfl⟩
abbrev main_c_13 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_14 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibJoinForms.lean ====
/-
  Two arrays joined along an axis, with the pieces as plain arguments.

  The library's `concatenate` takes its pieces as a list of shape-and-array pairs, and its side condition speaks of that
  list; a rewrite of one piece would have to carry the condition along. `cat2` is the same join of two pieces with the
  condition stated about the two shapes only, so that each piece is an ordinary argument: `concat_cat2` says the two forms are
  one function (by definition).
-/
import Idealize.ShloMosaic.PureOps.Ideal

noncomputable section

namespace Idealize.ShloMosaic.JoinForms

open Idealize.ShloMosaic

/-- Two arrays joined along axis `a` of the result shape `t`. -/
def cat2 {α : Type} (t : Shape) (a : Fin t.rank) (s1 s2 : Shape) (h : Shape.Concatenates [s1, s2] t a)
    (x : s1.Idx → α) (y : s2.Idx → α) : t.Idx → α :=
  concatenate t a [⟨s1, x⟩, ⟨s2, y⟩] h

/-- The library's join of a two-element list of pieces is `cat2` of the pieces. -/
theorem concat_cat2 {α : Type} (t : Shape) (a : Fin t.rank) (s1 s2 : Shape) (x : s1.Idx → α) (y : s2.Idx → α)
    (h : Shape.Concatenates (([(⟨s1, x⟩ : (s : Shape) × (s.Idx → α)), ⟨s2, y⟩]).map
      (fun p : (s : Shape) × (s.Idx → α) => p.1)) t a) :
    concatenate t a [⟨s1, x⟩, ⟨s2, y⟩] h = cat2 t a s1 s2 (show Shape.Concatenates [s1, s2] t a from h) x y := rfl

end Idealize.ShloMosaic.JoinForms

end
-- ==== Proof.LibSegmentRows.lean ====
/-
  Rows gathered and rows scatter-added, read at an entry; and the law that a linear map applied to every row commutes
  with a weighted segment sum of rows.

  A graph layer aggregates over edges: for every edge e it takes row src(e) of a node table x : [N, C]
  (stablehlo.gather with offset_dims [1], collapsed_slice_dims [0], start_index_map [0], index_vector_dim 1 and slice
  sizes [1, C], the start indices an [E, 1] integer array), scales the row by the edge's weight, and adds it into row
  tgt(e) of a zero [N, C] table (stablehlo.scatter with an add body, update_window_dims [1], inserted_window_dims [0],
  scatter_dims_to_operand_dims [0], index_vector_dim 1, the scatter indices again an [E, 1] integer array).

  Read at the extended reals:
    * the gathered array at (e, c) is x at (row e, c), where row e is the start index of edge e read as a signed
      integer and clamped into [0, N − 1]: it depends neither on the column c nor on the width C;
    * the scatter-add at (n, c) is the operand's entry plus the sum over the edges e whose scatter index, read as a
      signed integer, IS n, of the update's entry (e, c); an edge whose index is negative or ≥ N is equal to no n and
      contributes nowhere. Again the condition depends neither on c nor on C.
  Hence a linear map of the rows (y ↦ y · Wᵀ) may be applied before the gather or after the scatter-add, as long as
  every entry involved is a REAL number: the two sides are the two ways of bracketing
      Σ_{e : tgt e = n} Σ_k x(row e, k) · w(e) · W(o, k),
  equal by distributivity over the reals. Over arbitrary extended reals distributivity fails (∞ − ∞), so realness
  of the entries is a hypothesis.
-/
import Idealize.ShloMosaic.Lib.ValueIdx
import Idealize.ShloMosaic.PureOps.Ideal.Laws

noncomputable section

open scoped BigOperators

namespace Idealize.ShloMosaic.SegmentRows

open Idealize.ShloMosaic Idealize.ShloMosaic.ValueIdx

/-- Of the two axes of a matrix, the one that is not axis 0 is axis 1. -/
theorem kept_zero {N C : Nat} : (⟨2, ![N, C]⟩ : Shape).kept [0] = [1] := rfl
/-- The same with an empty list of further axes appended. -/
theorem kept_zero_nil {N C : Nat} : (⟨2, ![N, C]⟩ : Shape).kept ([0] ++ []) = [1] := rfl

/-! ## The row gather read at an entry -/

section Gather
variable {α : Type}

/-- The dimension numbers of "take rows": operand [N, C], start indices [E, 1], result [E, C]. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row edge e reads: its start index as a signed integer, clamped into [0, N − 1]. -/
def rowOf {N E w : Nat} (hN : 0 < N) (idx : IVec ⟨2, ![E, 1]⟩ w) (e : Fin E) : Fin N :=
  ⟨min (idx (ix2 e 0)).toInt.toNat (N - 1), by omega⟩

variable {N E C w : Nat} (wf : GatherDims.WF ⟨2, ![N, C]⟩ ⟨2, ![E, 1]⟩ ⟨2, ![E, C]⟩ [1] [0] [] [0] [] 1 ![1, C])
  (idx : IVec ⟨2, ![E, 1]⟩ w) (e : Fin E) (c : Fin C)

/-- On the row axis the operand index is the clamped start index … -/
theorem operandIdx_row :
    ((rowGatherDims N E C wf).operandIdx (ix2 e c) idx 0).val = min (idx (ix2 e 0)).toInt.toNat (N - 1) := by
  show (rowGatherDims N E C wf).start (ix2 e c) idx 0 + (rowGatherDims N E C wf).batchCoord (ix2 e c) 0
      + (rowGatherDims N E C wf).offCoord (ix2 e c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGatherDims N E C wf).startIndexMap from List.mem_singleton.mpr rfl)]
  have hsi : (rowGatherDims N E C wf).siIdx (ix2 e c) ⟨List.idxOf (0 : Fin 2) (rowGatherDims N E C wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- … and on the column axis it is the result's column. -/
theorem operandIdx_col :
    ((rowGatherDims N E C wf).operandIdx (ix2 e c) idx 1).val = c.val := by
  show (rowGatherDims N E C wf).start (ix2 e c) idx 1 + (rowGatherDims N E C wf).batchCoord (ix2 e c) 1
      + (rowGatherDims N E C wf).offCoord (ix2 e c) 1 = _
  rw [GatherDims.batchCoord_eq_zero _ _ _ List.not_mem_nil]
  unfold GatherDims.start
  rw [dif_neg (by decide : ¬ (1 : Fin 2) ∈ ([0] : List (Fin 2)))]
  unfold GatherDims.offCoord
  rw [dif_pos (by rw [GatherDims.sKept, kept_zero_nil]; exact List.mem_singleton.mpr rfl)]
  simp only [Nat.zero_add]
  rfl

/-- THE ROW GATHER AT (e, c): the operand at (row e, c). -/
theorem gather_rows_apply (hN : 0 < N) (x : (⟨2, ![N, C]⟩ : Shape).Idx → α) :
    Host.gather (rowGatherDims N E C wf) x idx (ix2 e c) = x (ix2 (rowOf hN idx e) c) := by
  unfold Host.gather
  congr 1
  funext a
  refine Fin.ext ?_
  match a with
  | ⟨0, _⟩ => exact operandIdx_row wf idx e c
  | ⟨1, _⟩ => exact operandIdx_col wf idx e c

end Gather

/-! ## The row scatter-add read at an entry -/

section Scatter

/-- The dimension numbers of "add rows into rows": operand [N, C], scatter indices [E, 1], updates [E, C]. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)
  (idx : IVec ⟨2, ![E, 1]⟩ w) (e : Fin E) (c : Fin C)

/-- The window of update (e, c) starts, on the row axis, at edge e's scatter index read signed … -/
theorem start_row : (rowScatterDims N E C wf).start (ix2 e c) idx 0 = (idx (ix2 e 0)).toInt := by
  unfold ScatterDims.start
  rw [dif_pos (show (0 : Fin 2) ∈ (rowScatterDims N E C wf).scatterDimsToOperandDims from List.mem_singleton.mpr rfl)]
  have hsi : (rowScatterDims N E C wf).siIdx (ix2 e c)
      ⟨List.idxOf (0 : Fin 2) (rowScatterDims N E C wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- … and at 0 on the column axis; -/
theorem start_col : (rowScatterDims N E C wf).start (ix2 e c) idx 1 = 0 := by
  unfold ScatterDims.start
  rw [dif_neg (by decide : ¬ (1 : Fin 2) ∈ ([0] : List (Fin 2)))]

/-- its window coordinate is 0 on the row axis (an inserted axis) … -/
theorem window_row : (rowScatterDims N E C wf).window (ix2 e c) 0 = 0 := by
  unfold ScatterDims.window
  rw [dif_neg (by rw [ScatterDims.sKept, kept_zero]; exact fun h => absurd (List.mem_singleton.mp h) (by decide : (0 : Fin 2) ≠ 1))]

/-- … and the update's column on the column axis. -/
theorem window_col : (rowScatterDims N E C wf).window (ix2 e c) 1 = c.val := by
  unfold ScatterDims.window
  rw [dif_pos (by rw [ScatterDims.sKept, kept_zero]; exact List.mem_singleton.mpr rfl)]
  rfl

/-- WHERE UPDATE (e, c) LANDS: at (n, c') exactly when edge e's scatter index, read signed, is n, and c' = c. An index
    that is negative or at least N is no n: that update is dropped. -/
theorem resultIdx?_eq_some_iff (n : Fin N) (c' : Fin C) :
    (rowScatterDims N E C wf).resultIdx? (ix2 e c) idx = some (ix2 n c')
      ↔ (idx (ix2 e 0)).toInt = (n.val : Int) ∧ c = c' := by
  unfold ScatterDims.resultIdx?
  constructor
  · intro h
    split at h
    · rename_i hr
      have hf := Option.some.inj h
      have h0 := congrArg (fun f => (f 0).val) hf
      have h1 := congrArg (fun f => (f 1).val) hf
      simp only [start_row, start_col, window_row, window_col] at h0 h1
      have hr0 := hr 0
      rw [start_row, window_row] at hr0
      refine ⟨?_, Fin.ext ?_⟩
      · have : ((ix2 n c' : (⟨2, ![N, C]⟩ : Shape).Idx) 0).val = n.val := rfl
        omega
      · have : ((ix2 n c' : (⟨2, ![N, C]⟩ : Shape).Idx) 1).val = c'.val := rfl
        omega
    · exact absurd h (by simp)
  · rintro ⟨ht, rfl⟩
    have hr : ∀ a, 0 ≤ (rowScatterDims N E C wf).start (ix2 e c) idx a + (rowScatterDims N E C wf).window (ix2 e c) a
        ∧ (rowScatterDims N E C wf).start (ix2 e c) idx a + (rowScatterDims N E C wf).window (ix2 e c) a
          < (⟨2, ![N, C]⟩ : Shape).size a := by
      intro a
      match a with
      | ⟨0, _⟩ =>
        show 0 ≤ (rowScatterDims N E C wf).start (ix2 e c) idx 0 + (rowScatterDims N E C wf).window (ix2 e c) 0
          ∧ (rowScatterDims N E C wf).start (ix2 e c) idx 0 + (rowScatterDims N E C wf).window (ix2 e c) 0 < (N : Int)
        rw [start_row, window_row, ht]
        have := n.isLt
        omega
      | ⟨1, _⟩ =>
        show 0 ≤ (rowScatterDims N E C wf).start (ix2 e c) idx 1 + (rowScatterDims N E C wf).window (ix2 e c) 1
          ∧ (rowScatterDims N E C wf).start (ix2 e c) idx 1 + (rowScatterDims N E C wf).window (ix2 e c) 1 < (C : Int)
        rw [start_col, window_col]
        have := c.isLt
        omega
    rw [dif_pos hr]
    congr 1
    funext a
    refine Fin.ext ?_
    match a with
    | ⟨0, _⟩ =>
      show ((rowScatterDims N E C wf).start (ix2 e c) idx 0 + (rowScatterDims N E C wf).window (ix2 e c) 0).toNat = n.val
      rw [start_row, window_row, ht]; simp
    | ⟨1, _⟩ =>
      show ((rowScatterDims N E C wf).start (ix2 e c) idx 1 + (rowScatterDims N E C wf).window (ix2 e c) 1).toNat = c.val
      rw [start_col, window_col]; simp

/-- THE ROW SCATTER-ADD AT (n, c): the operand's entry plus the update's entries (e, c) over the edges e whose scatter
    index is n. -/
theorem hostScatterAdd_rows_apply (x : (⟨2, ![N, C]⟩ : Shape).Idx → EReal) (upd : (⟨2, ![E, C]⟩ : Shape).Idx → EReal)
    (n : Fin N) :
    Ideal.hostScatterAdd (rowScatterDims N E C wf) x idx upd (ix2 n c)
      = x (ix2 n c) + ∑ e : Fin E, if (idx (ix2 e 0)).toInt = (n.val : Int) then upd (ix2 e c) else 0 := by
  unfold Ideal.hostScatterAdd
  congr 1
  rw [Finset.sum_filter, sum_idx2]
  refine Finset.sum_congr rfl fun e _ => ?_
  simp only [resultIdx?_eq_some_iff]
  by_cases ht : (idx (ix2 e 0)).toInt = (n.val : Int)
  · simp only [ht, true_and, if_true]
    rw [Finset.sum_ite_eq' Finset.univ c (fun c'' => upd (ix2 e c''))]
    simp
  · simp [ht]

end Scatter

/-! ## A linear map commutes with a weighted segment sum, over real entries -/

section Algebra

open Finset

/-- The coercion of the reals into the extended reals commutes with finite sums. -/
theorem coe_finset_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The coercion commutes with a choice between a real and zero. -/
theorem ite_coe (P : Prop) [Decidable P] (r : ℝ) :
    (if P then ((r : ℝ) : EReal) else 0) = (((if P then r else 0) : ℝ) : EReal) := by
  split <;> simp

/-- Over the reals: contracting the segment sum of the weighted rows a(e, ·) · v(e) with W equals the segment sum of the
    weighted contractions (Σ_k a(e, k) · W(k)) · v(e): each side is Σ_{e : P e} Σ_k a(e, k) · v(e) · W(k). -/
theorem segment_commute_real {ι κ : Type*} [Fintype ι] [Fintype κ] (P : ι → Prop) [DecidablePred P]
    (a : ι → κ → ℝ) (v : ι → ℝ) (W : κ → ℝ) :
    ∑ k, (∑ e, if P e then a e k * v e else 0) * W k = ∑ e, if P e then (∑ k, a e k * W k) * v e else 0 := by
  have hl : ∀ k, (∑ e, if P e then a e k * v e else 0) * W k = ∑ e, if P e then a e k * W k * v e else 0 := by
    intro k
    rw [Finset.sum_mul]
    refine Finset.sum_congr rfl fun e _ => ?_
    split
    · ring
    · simp
  rw [Finset.sum_congr rfl fun k _ => hl k, Finset.sum_comm]
  refine Finset.sum_congr rfl fun e _ => ?_
  split
  · rw [Finset.sum_mul]
  · simp

/-- The same over the extended reals, for families whose entries are all real numbers; the segment sums start from
    the zero a scatter-add's zero operand contributes. -/
theorem segment_commute_ereal {ι κ : Type*} [Fintype ι] [Fintype κ] (P : ι → Prop) [DecidablePred P]
    (a : ι → κ → EReal) (v : ι → EReal) (W : κ → EReal)
    (ha : ∀ e k, ∃ r : ℝ, a e k = (r : EReal)) (hv : ∀ e, ∃ r : ℝ, v e = (r : EReal))
    (hW : ∀ k, ∃ r : ℝ, W k = (r : EReal)) :
    ∑ k, (0 + ∑ e, if P e then a e k * v e else 0) * W k
      = 0 + ∑ e, if P e then (∑ k, a e k * W k) * v e else 0 := by
  choose A hA using ha
  choose V hV using hv
  choose W' hW' using hW
  have ea : a = fun e k => ((A e k : ℝ) : EReal) := funext fun e => funext fun k => hA e k
  have ev : v = fun e => ((V e : ℝ) : EReal) := funext fun e => hV e
  have ew : W = fun k => ((W' k : ℝ) : EReal) := funext fun k => hW' k
  subst ea ev ew
  simp only [zero_add, ← EReal.coe_mul, ite_coe, ← coe_finset_sum]
  exact congrArg _ (segment_commute_real P A V W')

end Algebra

end Idealize.ShloMosaic.SegmentRows

end
-- ==== Proof.LibRowScatterAdd.lean ====
/-
  The host's accumulating float scatter on rows, as a program prints it, read at an entry.

  A program's segment sum of rows prints as Host.scatterAdd at the scatter's dimension numbers (operand [N, C], scatter
  indices [E, 1], updates [E, C]; update_window_dims [1], inserted_window_dims [0], scatter_dims_to_operand_dims [0],
  index_vector_dim 1). At the ideal instance that is the exact sum: the operand's entry (n, c) plus the update entries
  (e, c) over the positions e whose index, read signed, is n. Stated here with the printed operation itself on the
  left, for sizes N, E, C left general: a statement about a particular program's array then applies it without
  anything being unfolded.
-/
import Idealize.ShloMosaic.Lib.ValueIdx
import Idealize.ShloMosaic.PureOps.Ideal.Laws
import proofs.«123916_j51213190037917_2_alg».proof.Proof.LibSegmentRows

noncomputable section

open scoped BigOperators

namespace Cert.RowScatterAdd

open Idealize.ShloMosaic Idealize.ShloMosaic.ValueIdx Idealize.ShloMosaic.SegmentRows

/-- THE PRINTED ROW SCATTER-ADD AT (n, c), at the ideal instance. -/
theorem scatterAdd_rows_apply {N E C w : Nat} {φ : FTy}
    (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ) (n : Fin N) (c : Fin C) :
    Host.scatterAdd (F := Ideal) (rowScatterDims N E C wf) x idx upd (ix2 n c)
      = x (ix2 n c) + ∑ e : Fin E, if (idx (ix2 e 0)).toInt = (n.val : Int) then upd (ix2 e c) else 0 :=
  hostScatterAdd_rows_apply wf idx c x upd n

end Cert.RowScatterAdd

end
-- ==== Proof.LibHostRowForms.lean ====
/-
  Host reductions and broadcasts of matrices, read at an index by coordinates, over the extended reals.

  A host sum of a matrix `[a, b]` from the zero word along its second axis is, at `i`, the sum of row `i`; along its
  first axis, at `j`, the sum of column `j`; a host maximum along the second axis from the word of minus infinity
  is the fold of `max` over the row. A vector `[a]` broadcast to a column `[a, 1]`, a column `[a, 1]` or a row
  `[1, b]` broadcast to `[a, b]`, and a vector `[b]` broadcast to a row `[1, b]` read the entry their kept coordinate
  names. Nothing here needs an entry to be finite.
-/
import Idealize.ShloMosaic.PureOps.Ideal.Laws
import Idealize.ShloMosaic.Lib.Pipeline.Value
import Idealize.ShloMosaic.Lib.ValueIdx

noncomputable section

open scoped BigOperators

namespace Cert.HostRowForms

open Idealize.ShloMosaic Idealize.ShloMosaic.ValueIdx

/-- The matrix index that reduces to `i` along the second axis and has `k` there is `(i, k)`. -/
theorem lift_axis1 {a b : ℕ} (h : (⟨2, ![a, b]⟩ : Shape).Reduces [1] ⟨1, ![a]⟩) (i : Fin a)
    (k : Fin ((⟨2, ![a, b]⟩ : Shape).size 1)) : h.lift (ix1 i) k = ix2 i (⟨k.val, k.isLt⟩ : Fin b) := by
  funext d; apply Fin.ext
  match d with
  | ⟨0, _⟩ => rfl
  | ⟨1, _⟩ => rfl

/-- The matrix index that reduces to `j` along the first axis and has `g` there is `(g, j)`. -/
theorem lift_axis0 {a b : ℕ} (h : (⟨2, ![a, b]⟩ : Shape).Reduces [0] ⟨1, ![b]⟩) (j : Fin b)
    (g : Fin ((⟨2, ![a, b]⟩ : Shape).size 0)) : h.lift (ix1 j) g = ix2 (⟨g.val, g.isLt⟩ : Fin a) j := by
  funext d; apply Fin.ext
  match d with
  | ⟨0, _⟩ => rfl
  | ⟨1, _⟩ => rfl

/-- A host sum along the rows from the zero word, at `i`: the sum of row `i`. -/
theorem reduceAdd_rows {a b : ℕ} {u : Shape} (x : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < u.numel) (i : Fin a) :
    Host.reduceAdd x (constant (F := Ideal) u .f32 0x00000000#32) h' hu (ix1 i) = ∑ k : Fin b, x (ix2 i k) := by
  show Ideal.hostReduceAdd h' x (Ideal.ofBits .f32 0x00000000#32) (ix1 i) = _
  rw [Ideal.hostReduceAdd_single h' h, Ideal.ofBits_zero_f32, zero_add]
  exact Finset.sum_congr rfl fun k _ => congrArg x (lift_axis1 h i k)

/-- A host sum down the columns from the zero word, at `j`: the sum of column `j`. -/
theorem reduceAdd_cols {a b : ℕ} {u : Shape} (x : FVec Ideal ⟨2, ![a, b]⟩ .f32)
    (h' : (⟨2, ![a, b]⟩ : Shape).ReducesTo [0] ⟨1, ![b]⟩) (h : (⟨2, ![a, b]⟩ : Shape).Reduces [0] ⟨1, ![b]⟩)
    (hu : 0 < u.numel) (j : Fin b) :
    Host.reduceAdd x (constant (F := Ideal) u .f32 0x00000000#32) h' hu (ix1 j) = ∑ g : Fin a, x (ix2 g j) := by
  show Ideal.hostReduceAdd h' x (Ideal.ofBits .f32 0x00000000#32) (ix1 j) = _
  rw [Ideal.hostReduceAdd_single h' h, Ideal.ofBits_zero_f32, zero_add]
  exact Finset.sum_congr rfl fun g _ => congrArg x (lift_axis0 h j g)

/-- A host maximum along the rows from the word of minus infinity, at `i`: the fold of `max` over row `i`. -/
theorem reduceMax_rows {a b : ℕ} {u : Shape} (x : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < u.numel) (i : Fin a) :
    Host.reduce (FloatOps.maximumf (F := Ideal) (φ := .f32)) x (constant (F := Ideal) u .f32 0xFF800000#32) h' hu (ix1 i)
      = (Finset.univ : Finset (Fin b)).fold max (Ideal.ofBits .f32 0xFF800000#32) (fun k => x (ix2 i k)) := by
  have hf : (FloatOps.maximumf (F := Ideal) (φ := .f32)) = (max : EReal → EReal → EReal) := rfl
  rw [hf, Host.reduce_eq_fold_single (max : EReal → EReal → EReal) x _ h' h hu (ix1 i)]
  exact congrArg (fun f => Finset.fold max (Ideal.ofBits .f32 0xFF800000#32) f (Finset.univ : Finset (Fin b)))
    (funext fun k => congrArg x (lift_axis1 h i k))

variable {α : Type}

/-- Where an operand axis goes under a `broadcast_in_dim`: an axis that is not a unit axis goes to a result axis of
    its own size, so when only one result axis `b` has that size, it goes to `b`. -/
theorem dims_eq_of_size {s t : Shape} {dims : Fin s.rank → Fin t.rank} (h : s.BroadcastsInDim t dims) (a : Fin s.rank)
    (b : Fin t.rank) (hne : s.size a ≠ 1) (huniq : ∀ b' : Fin t.rank, t.size b' = s.size a → b' = b) : dims a = b := by
  rcases h.2 a with h1 | h1
  · exact absurd h1 hne
  · exact huniq _ h1.symm

/-- A vector `[a]` broadcast along a new unit axis to the column `[a, 1]` reads, at `(i, u)`, the vector at `i`. -/
theorem bcast_a_a1_apply {a : ℕ} (v : (⟨1, ![a]⟩ : Shape).Idx → α) (dims : Fin 1 → Fin 2) (hd : dims 0 = 0)
    (h : (⟨1, ![a]⟩ : Shape).BroadcastsInDim ⟨2, ![a, 1]⟩ dims) (i : Fin a) (u : Fin 1) :
    broadcastInDim ⟨2, ![a, 1]⟩ dims h v (ix2 i u) = v (ix1 i) := by
  refine broadcastInDim_apply dims h v (ix2 i u) (ix1 i) fun ax => ?_
  match ax with
  | ⟨0, _⟩ =>
    show i.val = if a = 1 then 0 else ((ix2 i u : (⟨2, ![a, 1]⟩ : Shape).Idx) (dims 0)).val
    rw [hd]
    split
    · have := i.isLt; omega
    · rfl

/-- A column `[a, 1]` broadcast to `[a, b]` reads, at `(i, j)`, the column at `(i, 0)`. -/
theorem bcast_a1_ab_apply {a b : ℕ} (v : (⟨2, ![a, 1]⟩ : Shape).Idx → α) (dims : Fin 2 → Fin 2) (h0 : dims 0 = 0)
    (h : (⟨2, ![a, 1]⟩ : Shape).BroadcastsInDim ⟨2, ![a, b]⟩ dims) (i : Fin a) (j : Fin b) :
    broadcastInDim ⟨2, ![a, b]⟩ dims h v (ix2 i j) = v (ix2 i (0 : Fin 1)) := by
  refine broadcastInDim_apply dims h v (ix2 i j) (ix2 i (0 : Fin 1)) fun ax => ?_
  match ax with
  | ⟨0, _⟩ =>
    show i.val = if a = 1 then 0 else ((ix2 i j : (⟨2, ![a, b]⟩ : Shape).Idx) (dims 0)).val
    rw [h0]
    split
    · have := i.isLt; omega
    · rfl
  | ⟨1, _⟩ => rfl

/-- A row `[1, b]` broadcast to `[a, b]` reads, at `(i, j)`, the row at `(0, j)`. -/
theorem bcast_1b_ab_apply {a b : ℕ} (v : (⟨2, ![1, b]⟩ : Shape).Idx → α) (dims : Fin 2 → Fin 2) (h1 : dims 1 = 1)
    (h : (⟨2, ![1, b]⟩ : Shape).BroadcastsInDim ⟨2, ![a, b]⟩ dims) (i : Fin a) (j : Fin b) :
    broadcastInDim ⟨2, ![a, b]⟩ dims h v (ix2 i j) = v (ix2 (0 : Fin 1) j) := by
  refine broadcastInDim_apply dims h v (ix2 i j) (ix2 (0 : Fin 1) j) fun ax => ?_
  match ax with
  | ⟨0, _⟩ => rfl
  | ⟨1, _⟩ =>
    show j.val = if b = 1 then 0 else ((ix2 i j : (⟨2, ![a, b]⟩ : Shape).Idx) (dims 1)).val
    rw [h1]
    split
    · have := j.isLt; omega
    · rfl

/-- A vector `[b]` broadcast along a new leading unit axis to the row `[1, b]` reads, at `(u, j)`, the vector at `j`. -/
theorem bcast_b_1b_apply {b : ℕ} (v : (⟨1, ![b]⟩ : Shape).Idx → α) (dims : Fin 1 → Fin 2) (hd : dims 0 = 1)
    (h : (⟨1, ![b]⟩ : Shape).BroadcastsInDim ⟨2, ![1, b]⟩ dims) (u : Fin 1) (j : Fin b) :
    broadcastInDim ⟨2, ![1, b]⟩ dims h v (ix2 u j) = v (ix1 j) := by
  refine broadcastInDim_apply dims h v (ix2 u j) (ix1 j) fun ax => ?_
  match ax with
  | ⟨0, _⟩ =>
    show j.val = if b = 1 then 0 else ((ix2 u j : (⟨2, ![1, b]⟩ : Shape).Idx) (dims 0)).val
    rw [hd]
    split
    · have := j.isLt; omega
    · rfl

/-- A rank-zero constant broadcast to any shape reads the constant's value everywhere. -/
theorem bcast_scalar_apply {t : Shape} {φ : FTy} (w : BitVec φ.bits) (dims : Fin 0 → Fin t.rank)
    (h : (⟨0, ![]⟩ : Shape).BroadcastsInDim t dims) (j : t.Idx) :
    broadcastInDim t dims h (constant (F := Ideal) ⟨0, ![]⟩ φ w) j = Ideal.ofBits φ w := rfl

end Cert.HostRowForms

end
-- ==== Proof.LibColumnForms.lean ====
/-
  A column vector read at an index.

  Summing a matrix along its rows with the summed axis kept gives a column: the sums, an `[a]` vector, are laid out as
  `[a, 1]`, and the column is then copied along a new second axis to `[a, b]`. Entry `(i, j)` of the result is
  entry `i` of the vector, whatever `j`. The two lemmas below say this one layout step at a time, every index
  written by its coordinates.
-/
import Idealize.ShloMosaic.Lib.Pipeline.Value
import Idealize.ShloMosaic.Lib.ValueIdx

namespace Cert.ColumnForms

open Idealize.ShloMosaic Idealize.ShloMosaic.ValueIdx

variable {α : Type}

/-- A vector `[a]` laid out as a column `[a, 1]` reads, at `(i, u)`, the vector at `i`: the row-major position
    `i · 1 + u` of `(i, u)` is `i`, the unit coordinate `u` being `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` copied along its unit axis to `[a, b]` reads, at `(i, j)`, the column at `(i, 0)`: the first
    coordinate is kept (also when `a = 1`, where it is `0` anyway), the second is the unit axis's only one. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.ColumnForms
-- ==== Proof.LibRealEntries.lean ====
/-
  Real entries. An extended real is REAL when it is neither infinity (`IsReal v : ∃ r : ℝ, v = r`). The exact
  operations on the extended reals keep real entries real: sums, differences, products, maxima and minima; a finite
  sum; the exact quotient by a nonzero real; the square root of a nonnegative real and the reciprocal square root of
  a positive real; a contraction (a matrix product onto a real accumulator); a sum along axes from a real initial
  value; and an accumulating scatter (each entry of the operand plus the sum of the update entries that land on it,
  whatever the indices are). With these a chain of linear layers, rectifications, segment sums and normalisations of
  finite inputs has real entries throughout — which is what distributivity and cancellation on the extended reals
  need.
-/
import Idealize.ShloMosaic.PureOps.Ideal

noncomputable section

namespace Cert.LibRealEntries

open Idealize.ShloMosaic

/-- An extended real that is a real number. -/
def IsReal (v : EReal) : Prop := ∃ r : ℝ, v = (r : EReal)

theorem isReal_coe (r : ℝ) : IsReal (r : EReal) := ⟨r, rfl⟩
theorem isReal_zero : IsReal 0 := ⟨0, rfl⟩
theorem isReal_one : IsReal 1 := ⟨1, rfl⟩

theorem IsReal.ne_top {v : EReal} (h : IsReal v) : v ≠ ⊤ := by obtain ⟨r, rfl⟩ := h; exact EReal.coe_ne_top r
theorem IsReal.ne_bot {v : EReal} (h : IsReal v) : v ≠ ⊥ := by obtain ⟨r, rfl⟩ := h; exact EReal.coe_ne_bot r

/-- Real exactly when neither infinity. -/
theorem isReal_iff (v : EReal) : IsReal v ↔ v ≠ ⊤ ∧ v ≠ ⊥ :=
  ⟨fun h => ⟨h.ne_top, h.ne_bot⟩, fun h => ⟨v.toReal, (EReal.coe_toReal h.1 h.2).symm⟩⟩

/-- A real entry is the coercion of its own real part. -/
theorem IsReal.eq_coe_toReal {v : EReal} (h : IsReal v) : v = ((v.toReal : ℝ) : EReal) := by
  obtain ⟨r, rfl⟩ := h; rw [EReal.toReal_coe]

theorem IsReal.add {a b : EReal} (ha : IsReal a) (hb : IsReal b) : IsReal (a + b) := by
  obtain ⟨r, rfl⟩ := ha; obtain ⟨s, rfl⟩ := hb; exact ⟨r + s, (EReal.coe_add r s).symm⟩
theorem IsReal.sub {a b : EReal} (ha : IsReal a) (hb : IsReal b) : IsReal (a - b) := by
  obtain ⟨r, rfl⟩ := ha; obtain ⟨s, rfl⟩ := hb; exact ⟨r - s, (EReal.coe_sub r s).symm⟩
theorem IsReal.mul {a b : EReal} (ha : IsReal a) (hb : IsReal b) : IsReal (a * b) := by
  obtain ⟨r, rfl⟩ := ha; obtain ⟨s, rfl⟩ := hb; exact ⟨r * s, (EReal.coe_mul r s).symm⟩
theorem IsReal.neg {a : EReal} (ha : IsReal a) : IsReal (-a) := by
  obtain ⟨r, rfl⟩ := ha; exact ⟨-r, (EReal.coe_neg r).symm⟩
theorem IsReal.max {a b : EReal} (ha : IsReal a) (hb : IsReal b) : IsReal (max a b) := by
  rcases max_cases a b with h | h <;> rw [h.1] <;> assumption
theorem IsReal.min {a b : EReal} (ha : IsReal a) (hb : IsReal b) : IsReal (min a b) := by
  rcases min_cases a b with h | h <;> rw [h.1] <;> assumption

/-- A finite sum of real entries is real. -/
theorem isReal_sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The exact quotient of a real entry by a nonzero real is real. -/
theorem IsReal.div_coe {a : EReal} (ha : IsReal a) {n : ℝ} (hn : n ≠ 0) : IsReal (Ideal.div a (n : EReal)) := by
  rw [Ideal.div_coe hn]; exact ha.mul (isReal_coe _)

/-- The square root of a nonnegative real is real. -/
theorem isReal_sqrt {r : ℝ} (hr : 0 ≤ r) : IsReal (Ideal.sqrt (r : EReal)) := by
  rw [Ideal.sqrt_coe, if_neg (not_lt.mpr hr)]; exact isReal_coe _

/-- The reciprocal square root of a positive real is real. -/
theorem isReal_rsqrt {r : ℝ} (hr : 0 < r) : IsReal (Ideal.rsqrt (r : EReal)) := by
  rw [Ideal.rsqrt_coe, if_neg (not_lt.mpr hr.le), if_neg hr.ne']; exact isReal_coe _

/-- A contraction of real operands onto a real accumulator has real entries. -/
theorem isReal_matmul {sl sr so : Shape} (d : DotDims sl sr so) (lhs : sl.Idx → EReal) (rhs : sr.Idx → EReal)
    (acc : so.Idx → EReal) (hl : ∀ i, IsReal (lhs i)) (hr : ∀ i, IsReal (rhs i)) (ha : ∀ j, IsReal (acc j)) (j : so.Idx) :
    IsReal (Ideal.matmul d lhs rhs acc j) :=
  (ha j).add (isReal_sum _ _ fun k _ => (hl _).mul (hr _))

/-- A host sum along axes of real entries from a real initial value has real entries. -/
theorem isReal_hostReduceAdd {s : Shape} {axes : List (Fin s.rank)} {t : Shape} (h : s.ReducesTo axes t) (x : s.Idx → EReal)
    (init : EReal) (hx : ∀ i, IsReal (x i)) (hi : IsReal init) (j : t.Idx) : IsReal (Ideal.hostReduceAdd h x init j) :=
  hi.add (isReal_sum _ _ fun i _ => hx i)

/-- A lane sum along axes of real entries has real entries. -/
theorem isReal_reduceAdd {s : Shape} {axes : List (Fin s.rank)} {t : Shape} (h : s.Reduces axes t) (x : s.Idx → EReal)
    (hx : ∀ i, IsReal (x i)) (j : t.Idx) : IsReal (Ideal.reduceAdd h x j) :=
  isReal_sum _ _ fun i _ => hx i

/-- An accumulating scatter of real updates into a real operand has real entries, whatever the indices. -/
theorem isReal_hostScatterAdd {s si su : Shape} (d : ScatterDims s si su) {w : Nat} (x : s.Idx → EReal) (idx : IVec si w)
    (upd : su.Idx → EReal) (hx : ∀ i, IsReal (x i)) (hu : ∀ j, IsReal (upd j)) (i : s.Idx) :
    IsReal (Ideal.hostScatterAdd d x idx upd i) :=
  (hx i).add (isReal_sum _ _ fun j _ => hu j)

end Cert.LibRealEntries

end
-- ==== Proof.LibRealHostOps.lean ====
/-
  Real entries through the host's operations, in the spelling of printed host programs.

  Every entry of a concatenation is an entry of one of its pieces, so a property of all the pieces' entries holds of
  the whole; a gather copies entries and an accumulating scatter adds finitely many, so both keep real entries
  real, whatever the indices; the guarded inverse square root `select (a > 0) (rsqrt a) z` of a real `a` is real
  when `z` is; the words of zero and one denote reals; and a finite sum of nonnegative reals is a nonnegative real.
  The statements about operations hold for arrays of any shape and any indices.
-/
import Idealize.ShloMosaic.PureOps.Ideal
import Idealize.ShloMosaic.PureOps.Ideal.Laws
import proofs.«123916_j51213190037917_2_alg».proof.Proof.LibRealEntries

noncomputable section

namespace Cert.LibRealHostOps

open Cert.LibRealEntries Idealize.ShloMosaic

/-- The pattern of `1.0` denotes the real one. -/
theorem ofBits_one_f32 : Ideal.ofBits .f32 0x3F800000#32 = ((1 : ℝ) : EReal) := by
  simp [Ideal.ofBits, Ideal.ieee, -EReal.coe_mul]; norm_num

/-- Every entry of a concatenation is an entry of one of the pieces. -/
theorem concatenate_forall {α : Type} {t : Shape} (a : Fin t.rank) (xs : List ((s : Shape) × (s.Idx → α)))
    (h : Shape.Concatenates (xs.map (·.1)) t a) (P : α → Prop) (hP : ∀ p ∈ xs, ∀ i, P (p.2 i)) (j : t.Idx) :
    P (concatenate t a xs h j) := by
  unfold concatenate
  exact hP _ (List.getElem_mem _) _

theorem real_zero_word : IsReal (Ideal.ofBits .f32 0x00000000#32) := by
  rw [Ideal.ofBits_zero_f32]; exact isReal_zero
theorem real_one_word : IsReal (Ideal.ofBits .f32 0x3F800000#32) := by
  rw [ofBits_one_f32]; exact isReal_coe _

/-- The inverse square root of a real where it is positive, a real elsewhere: real. -/
theorem real_guarded_rsqrt {a z : EReal} (ha : IsReal a) (hz : IsReal z) :
    IsReal (Scalar.select (Ideal.cmp .ogt a (Ideal.ofBits .f32 0x00000000#32)) (Ideal.rsqrt a) z) := by
  obtain ⟨r, rfl⟩ := ha
  rw [Ideal.ofBits_zero_f32]
  by_cases h : (0 : EReal) < (r : EReal)
  · have hc : Ideal.cmp .ogt (r : EReal) 0 = 1#1 := by simp [Ideal.cmp, h]
    rw [hc]
    exact isReal_rsqrt (by exact_mod_cast h)
  · have hc : Ideal.cmp .ogt (r : EReal) 0 = 0#1 := by simp [Ideal.cmp, h]
    rw [hc]
    exact hz

/-- The same in the spelling of the printed host operations. -/
theorem real_guarded_rsqrt_host {a z : Ideal .f32} (ha : IsReal a) (hz : IsReal z) :
    IsReal (Scalar.select (FloatOps.cmpf .ogt a (FloatOps.ofBits (F := Ideal) .f32 0x00000000#32))
      (FloatOps.hostUnary .rsqrt a) z) :=
  real_guarded_rsqrt ha hz

/-- A host accumulating scatter of real updates into a real operand has real entries. -/
theorem isReal_scatterAdd {s si su : Shape} (d : ScatterDims s si su) {w : Nat} (x : FVec Ideal s .f32) (idx : IVec si w)
    (upd : FVec Ideal su .f32) (hx : ∀ i, IsReal (x i)) (hu : ∀ j, IsReal (upd j)) (i : s.Idx) :
    IsReal (Host.scatterAdd d x idx upd i) :=
  isReal_hostScatterAdd d x idx upd hx hu i

/-- A host gather of an array with real entries has real entries. -/
theorem isReal_gather {s si t : Shape} (d : GatherDims s si t) {w : Nat} (x : FVec Ideal s .f32) (idx : IVec si w)
    (hx : ∀ i, IsReal (x i)) (j : t.Idx) : IsReal (Host.gather d x idx j) :=
  hx _

theorem isReal_mulf {a b : Ideal .f32} (ha : IsReal a) (hb : IsReal b) : IsReal (FloatOps.mulf a b) := ha.mul hb
theorem isReal_addf {a b : Ideal .f32} (ha : IsReal a) (hb : IsReal b) : IsReal (FloatOps.addf a b) := ha.add hb
theorem isReal_subf {a b : Ideal .f32} (ha : IsReal a) (hb : IsReal b) : IsReal (FloatOps.subf a b) := ha.sub hb
theorem real_zero_bits : IsReal (FloatOps.ofBits (F := Ideal) .f32 0x00000000#32) := real_zero_word
theorem real_one_bits : IsReal (FloatOps.ofBits (F := Ideal) .f32 0x3F800000#32) := real_one_word

/-- A finite sum of nonnegative reals is a nonnegative real. -/
theorem nonneg_real_sum {ι : Type*} (s : Finset ι) (f : ι → EReal) (h : ∀ i ∈ s, ∃ r : ℝ, 0 ≤ r ∧ f i = (r : EReal)) :
    ∃ R : ℝ, 0 ≤ R ∧ ∑ i ∈ s, f i = (R : EReal) := by
  classical
  induction s using Finset.induction_on with
  | empty => exact ⟨0, le_refl _, by simp⟩
  | insert a s ha ih =>
    obtain ⟨r, hr, er⟩ := h a (Finset.mem_insert_self a s)
    obtain ⟨R, hR, eR⟩ := ih fun i hi => h i (Finset.mem_insert_of_mem hi)
    exact ⟨r + R, add_nonneg hr hR, by rw [Finset.sum_insert ha, er, eR, EReal.coe_add]⟩

end Cert.LibRealHostOps

end
-- ==== Proof.LibGcnHop.lean ====
/-
  One propagation step of a graph convolution with symmetric normalisation, in its two arrangements, over the
  extended reals, for any numbers of nodes N, messages M and channels C.

  Every message e carries a source row s(e) (a start index read signed and clamped into [0, N − 1]) and a scatter
  index t(e); message e is added into row n exactly when t(e), read signed, is n. With d the per-node coefficient
  (the inverse square root of the in-degree where that is positive, zero elsewhere):

    * the SCALED arrangement multiplies the table by d row by row, gathers the rows s(e), adds them into the rows
      t(e) of a zero table, and multiplies the result by d row by row:
          out(n, c) = (0 + Σ_{e : t(e) = n} h(s e, c) · d(s e)) · d(n);
    * the WEIGHTED arrangement gathers the rows s(e) of the unscaled table, multiplies message e by the weight
      d(s e) · d(t' e) — t' e the scatter index wrapped when negative and clamped, as an indexing read does — and adds
      the messages into the rows t(e) of a zero table:
          out(n, c) = 0 + Σ_{e : t(e) = n} h(s e, c) · (d(s e) · d(t' e)).

  A message lands in row n only if its index is n, and then t' e = n; so the two differ by moving the factor d(n)
  across the sum, which is distributivity. On the extended reals distributivity needs the entries to be real
  numbers (∞ − ∞), hence the hypotheses that h and d have real entries; the weighted step keeps real entries real.
-/
import Idealize.ShloMosaic.Lib.ValueIdx
import Idealize.ShloMosaic.PureOps.Ideal.Laws
import proofs.«123916_j51213190037917_2_alg».proof.Proof.LibSegmentRows
import proofs.«123916_j51213190037917_2_alg».proof.Proof.LibRowScatterAdd
import proofs.«123916_j51213190037917_2_alg».proof.Proof.LibHostRowForms
import proofs.«123916_j51213190037917_2_alg».proof.Proof.LibColumnForms
import proofs.«123916_j51213190037917_2_alg».proof.Proof.LibRealEntries
import proofs.«123916_j51213190037917_2_alg».proof.Proof.LibRealHostOps

noncomputable section

open scoped BigOperators

namespace Cert.GcnHop

open Idealize.ShloMosaic Idealize.ShloMosaic.ValueIdx Idealize.ShloMosaic.SegmentRows
open Cert.LibRealEntries Cert.LibRealHostOps

/-! ## A vector gathered through a column of indices, read at an entry -/

section VecGather
variable {α : Type}

/-- The dimension numbers of "take entries of a vector": operand [N], start indices [M, 1], result [M]. -/
abbrev vecGatherDims (N M : Nat)
    (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

variable {N M w : Nat} (wf : GatherDims.WF ⟨1, ![N]⟩ ⟨2, ![M, 1]⟩ ⟨1, ![M]⟩ [] [0] [] [0] [] 1 ![1])
  (idx : IVec ⟨2, ![M, 1]⟩ w) (e : Fin M)

/-- The operand index of result entry e is the clamped start index of e. -/
theorem operandIdx_vec :
    ((vecGatherDims N M wf).operandIdx (ix1 e) idx 0).val = min (idx (ix2 e 0)).toInt.toNat (N - 1) := by
  show (vecGatherDims N M wf).start (ix1 e) idx 0 + (vecGatherDims N M wf).batchCoord (ix1 e) 0
      + (vecGatherDims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N M wf).startIndexMap from List.mem_singleton.mpr rfl)]
  have hsi : (vecGatherDims N M wf).siIdx (ix1 e) ⟨List.idxOf (0 : Fin 1) (vecGatherDims N M wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- THE VECTOR GATHER AT e: the operand at the clamped start index of e. -/
theorem gather_vec_apply (hN : 0 < N) (x : (⟨1, ![N]⟩ : Shape).Idx → α) :
    Host.gather (vecGatherDims N M wf) x idx (ix1 e) = x (ix1 (rowOf hN idx e)) := by
  unfold Host.gather
  congr 1
  funext a
  refine Fin.ext ?_
  match a with
  | ⟨0, _⟩ => exact operandIdx_vec wf idx e

end VecGather

/-! ## The law: a common factor moved across a guarded sum of real terms -/

section Law
open Finset

/-- Over the reals. -/
theorem scaled_sum_real {ι : Type*} [Fintype ι] (P : ι → Prop) [DecidablePred P] (a b : ι → ℝ) (D : ℝ) :
    (∑ e, if P e then a e * b e else 0) * D = ∑ e, if P e then a e * (b e * D) else 0 := by
  rw [Finset.sum_mul]
  refine Finset.sum_congr rfl fun e _ => ?_
  split
  · ring
  · simp

/-- Over the extended reals with real entries; the sums start from a zero, and the factor inside the right-hand sum
    may be any t e that equals the outer factor wherever the guard holds. -/
theorem scaled_sum_ereal {ι : Type*} [Fintype ι] (P : ι → Prop) [DecidablePred P] (a b t : ι → EReal) (z dn : EReal)
    (ha : ∀ e, IsReal (a e)) (hb : ∀ e, IsReal (b e)) (hdn : IsReal dn) (hz : z = 0) (ht : ∀ e, P e → t e = dn) :
    (z + ∑ e, if P e then a e * b e else 0) * dn = z + ∑ e, if P e then a e * (b e * t e) else 0 := by
  have hr : (∑ e, if P e then a e * (b e * t e) else 0) = ∑ e, if P e then a e * (b e * dn) else 0 :=
    Finset.sum_congr rfl fun e _ => by
      by_cases hp : P e
      · rw [if_pos hp, if_pos hp, ht e hp]
      · rw [if_neg hp, if_neg hp]
  rw [hr, hz]
  choose A hA using ha
  choose B hB using hb
  obtain ⟨D, rfl⟩ := hdn
  have ea : a = fun e => ((A e : ℝ) : EReal) := funext hA
  have eb : b = fun e => ((B e : ℝ) : EReal) := funext hB
  subst ea eb
  simp only [zero_add, ← EReal.coe_mul, ite_coe, ← coe_finset_sum]
  exact congrArg _ (scaled_sum_real P A B D)

end Law

/-! ## The arrays of a step -/

/-- The side conditions of the shapes a step's operations are stated over (a program states them of its literal shapes). -/
structure Wit (N M C : ℕ) : Prop where
  b0_N : (⟨0, ![]⟩ : Shape).BroadcastsInDim ⟨1, ![N]⟩ ![]
  b0_M : (⟨0, ![]⟩ : Shape).BroadcastsInDim ⟨1, ![M]⟩ ![]
  b0_NC : (⟨0, ![]⟩ : Shape).BroadcastsInDim ⟨2, ![N, C]⟩ ![]
  bM_M1 : (⟨1, ![M]⟩ : Shape).BroadcastsInDim ⟨2, ![M, 1]⟩ ![0]
  bM1_MC : (⟨2, ![M, 1]⟩ : Shape).BroadcastsInDim ⟨2, ![M, C]⟩ ![0, 1]
  bN1_NC : (⟨2, ![N, 1]⟩ : Shape).BroadcastsInDim ⟨2, ![N, C]⟩ ![0, 1]
  cN_N1 : (⟨1, ![N]⟩ : Shape).ShapeCasts ⟨2, ![N, 1]⟩
  sc1 : ScatterDims.WF ⟨1, ![N]⟩ ⟨2, ![M, 1]⟩ ⟨1, ![M]⟩ [] [0] [0] 1
  g1 : GatherDims.WF ⟨1, ![N]⟩ ⟨2, ![M, 1]⟩ ⟨1, ![M]⟩ [] [0] [] [0] [] 1 ![1]
  g2 : GatherDims.WF ⟨2, ![N, C]⟩ ⟨2, ![M, 1]⟩ ⟨2, ![M, C]⟩ [1] [0] [] [0] [] 1 ![1, C]
  sc2 : ScatterDims.WF ⟨2, ![N, C]⟩ ⟨2, ![M, 1]⟩ ⟨2, ![M, C]⟩ [1] [0] [0] 1

/-- The dimension numbers of "add entries into a vector": operand [N], scatter indices [M, 1], updates [M]. -/
abbrev vecScatterDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

section Arrays
variable {N M C : ℕ} (wt : Wit N M C)

/-- The zero vector [N]. -/
def zerosN : FVec Ideal ⟨1, ![N]⟩ .f32 :=
  broadcastInDim ⟨1, ![N]⟩ ![] wt.b0_N (constant (F := Ideal) ⟨0, ![]⟩ .f32 0x00000000#32)
/-- The zero table [N, C]. -/
def zerosNC : FVec Ideal ⟨2, ![N, C]⟩ .f32 :=
  broadcastInDim ⟨2, ![N, C]⟩ ![] wt.b0_NC (constant (F := Ideal) ⟨0, ![]⟩ .f32 0x00000000#32)
/-- An index vector [M] as a column [M, 1]. -/
def col (v : IVec ⟨1, ![M]⟩ 32) : IVec ⟨2, ![M, 1]⟩ 32 := broadcastInDim ⟨2, ![M, 1]⟩ ![0] wt.bM_M1 v
/-- An index vector with its negative entries moved up by the word nW (an indexing read's wrap-around). -/
def wrapNeg (nW : BitVec 32) (v : IVec ⟨1, ![M]⟩ 32) : IVec ⟨1, ![M]⟩ 32 :=
  select (cmpi .slt v (broadcastInDim ⟨1, ![M]⟩ ![] wt.b0_M (constantI ⟨0, ![]⟩ 32 0#32)))
    (addi v (broadcastInDim ⟨1, ![M]⟩ ![] wt.b0_M (constantI ⟨0, ![]⟩ 32 nW))) v
/-- The in-degree: ones added into a zero vector at the scatter indices. -/
def degree (dstC : IVec ⟨2, ![M, 1]⟩ 32) : FVec Ideal ⟨1, ![N]⟩ .f32 :=
  Host.scatterAdd (F := Ideal) (vecScatterDims N M wt.sc1) (zerosN wt) dstC
    (broadcastInDim ⟨1, ![M]⟩ ![] wt.b0_M (constant (F := Ideal) ⟨0, ![]⟩ .f32 0x3F800000#32))
/-- The coefficient: the inverse square root of the degree where that is positive, zero elsewhere. -/
def coeff (dstC : IVec ⟨2, ![M, 1]⟩ 32) : FVec Ideal ⟨1, ![N]⟩ .f32 :=
  select (cmpf (F := Ideal) .ogt (degree wt dstC) (zerosN wt)) (Host.rsqrt (F := Ideal) (degree wt dstC)) (zerosN wt)
/-- The coefficient as a column [N, 1] … -/
def coeffCol (d : FVec Ideal ⟨1, ![N]⟩ .f32) : FVec Ideal ⟨2, ![N, 1]⟩ .f32 := shapeCast ⟨2, ![N, 1]⟩ d wt.cN_N1
/-- … and copied along the rows to [N, C]. -/
def coeffRows (d : FVec Ideal ⟨1, ![N]⟩ .f32) : FVec Ideal ⟨2, ![N, C]⟩ .f32 :=
  broadcastInDim ⟨2, ![N, C]⟩ ![0, 1] wt.bN1_NC (coeffCol wt d)
/-- Messages added into the rows of a zero table. -/
def segSum (dstC : IVec ⟨2, ![M, 1]⟩ 32) (u : FVec Ideal ⟨2, ![M, C]⟩ .f32) : FVec Ideal ⟨2, ![N, C]⟩ .f32 :=
  Host.scatterAdd (F := Ideal) (rowScatterDims N M C wt.sc2) (zerosNC wt) dstC u
/-- The source rows of a table. -/
def takeRows (srcC : IVec ⟨2, ![M, 1]⟩ 32) (h : FVec Ideal ⟨2, ![N, C]⟩ .f32) : FVec Ideal ⟨2, ![M, C]⟩ .f32 :=
  Host.gather (rowGatherDims N M C wt.g2) h srcC
/-- THE SCALED STEP, from a table already multiplied by the coefficient: gather, add, multiply by the coefficient. -/
def scaledStep (d : FVec Ideal ⟨1, ![N]⟩ .f32) (srcC dstC : IVec ⟨2, ![M, 1]⟩ 32) (g : FVec Ideal ⟨2, ![N, C]⟩ .f32) :
    FVec Ideal ⟨2, ![N, C]⟩ .f32 :=
  mulf (F := Ideal) (segSum wt dstC (takeRows wt srcC g)) (coeffRows wt d)
/-- The weight of a message: the coefficient at its source times the coefficient at its (wrapped) target. -/
def weights (d : FVec Ideal ⟨1, ![N]⟩ .f32) (srcC dstNC : IVec ⟨2, ![M, 1]⟩ 32) : FVec Ideal ⟨1, ![M]⟩ .f32 :=
  mulf (F := Ideal) (Host.gather (vecGatherDims N M wt.g1) d srcC) (Host.gather (vecGatherDims N M wt.g1) d dstNC)
/-- The weights as a column copied along the rows to [M, C]. -/
def weightRows (nrm : FVec Ideal ⟨1, ![M]⟩ .f32) : FVec Ideal ⟨2, ![M, C]⟩ .f32 :=
  broadcastInDim ⟨2, ![M, C]⟩ ![0, 1] wt.bM1_MC (broadcastInDim ⟨2, ![M, 1]⟩ ![0] wt.bM_M1 nrm)
/-- THE WEIGHTED STEP: gather, multiply each message by its weight, add. -/
def weightedStep (nrm : FVec Ideal ⟨1, ![M]⟩ .f32) (srcC dstC : IVec ⟨2, ![M, 1]⟩ 32) (h : FVec Ideal ⟨2, ![N, C]⟩ .f32) :
    FVec Ideal ⟨2, ![N, C]⟩ .f32 :=
  segSum wt dstC (mulf (F := Ideal) (takeRows wt srcC h) (weightRows wt nrm))

/-! ### Read at an entry -/

theorem zerosNC_apply (j : (⟨2, ![N, C]⟩ : Shape).Idx) : zerosNC wt j = 0 := by
  show Ideal.ofBits .f32 0x00000000#32 = 0
  exact Ideal.ofBits_zero_f32

theorem coeffRows_apply (d : FVec Ideal ⟨1, ![N]⟩ .f32) (n : Fin N) (c : Fin C) : coeffRows wt d (ix2 n c) = d (ix1 n) := by
  unfold coeffRows coeffCol
  rw [Cert.HostRowForms.bcast_a1_ab_apply _ _ rfl, Cert.ColumnForms.shapeCast_a_a1_apply]

theorem coeffCol_apply (d : FVec Ideal ⟨1, ![N]⟩ .f32) (n : Fin N) : coeffCol wt d (ix2 n 0) = d (ix1 n) := by
  unfold coeffCol
  rw [Cert.ColumnForms.shapeCast_a_a1_apply]

theorem col_apply (v : IVec ⟨1, ![M]⟩ 32) (e : Fin M) : col wt v (ix2 e 0) = v (ix1 e) := by
  unfold col
  exact Cert.HostRowForms.bcast_a_a1_apply v _ rfl _ e 0

theorem weightRows_apply (nrm : FVec Ideal ⟨1, ![M]⟩ .f32) (e : Fin M) (c : Fin C) : weightRows wt nrm (ix2 e c) = nrm (ix1 e) := by
  unfold weightRows
  rw [Cert.HostRowForms.bcast_a1_ab_apply _ _ rfl, Cert.HostRowForms.bcast_a_a1_apply _ _ rfl]

/-! ### The two steps agree on real entries -/

/-- A scaled step from h · d is the weighted step from h, when h and d have real entries and every message that lands
    in row n has wrapped-and-clamped target n. -/
theorem step_eq (hN : 0 < N) (d : FVec Ideal ⟨1, ![N]⟩ .f32) (hd : ∀ i, IsReal (d i))
    (srcC dstC dstNC : IVec ⟨2, ![M, 1]⟩ 32)
    (hT : ∀ (e : Fin M) (n : Fin N), (dstC (ix2 e 0)).toInt = (n.val : Int) → rowOf hN dstNC e = n)
    (h : FVec Ideal ⟨2, ![N, C]⟩ .f32) (hh : ∀ i, IsReal (h i)) :
    scaledStep wt d srcC dstC (mulf (F := Ideal) h (coeffRows wt d))
      = weightedStep wt (weights wt d srcC dstNC) srcC dstC h := by
  funext j
  obtain ⟨n, c, rfl⟩ : ∃ (n : Fin N) (c : Fin C), j = ix2 n c := ⟨j 0, j 1, eq_ix2 j⟩
  have e1 : ∀ e : Fin M, takeRows wt srcC (mulf (F := Ideal) h (coeffRows wt d)) (ix2 e c)
      = h (ix2 (rowOf hN srcC e) c) * d (ix1 (rowOf hN srcC e)) := fun e => by
    unfold takeRows
    rw [gather_rows_apply wt.g2 srcC e c hN]
    show h _ * coeffRows wt d _ = _
    rw [coeffRows_apply]
  have e2 : ∀ e : Fin M, mulf (F := Ideal) (takeRows wt srcC h) (weightRows wt (weights wt d srcC dstNC)) (ix2 e c)
      = h (ix2 (rowOf hN srcC e) c) * (d (ix1 (rowOf hN srcC e)) * d (ix1 (rowOf hN dstNC e))) := fun e => by
    show takeRows wt srcC h (ix2 e c) * weightRows wt (weights wt d srcC dstNC) (ix2 e c) = _
    unfold takeRows
    rw [gather_rows_apply wt.g2 srcC e c hN, weightRows_apply]
    unfold weights
    show _ * (Host.gather (vecGatherDims N M wt.g1) d srcC (ix1 e) * Host.gather (vecGatherDims N M wt.g1) d dstNC (ix1 e)) = _
    rw [gather_vec_apply wt.g1 srcC e hN, gather_vec_apply wt.g1 dstNC e hN]
  show segSum wt dstC (takeRows wt srcC (mulf (F := Ideal) h (coeffRows wt d))) (ix2 n c) * coeffRows wt d (ix2 n c)
    = segSum wt dstC (mulf (F := Ideal) (takeRows wt srcC h) (weightRows wt (weights wt d srcC dstNC))) (ix2 n c)
  unfold segSum
  rw [Cert.RowScatterAdd.scatterAdd_rows_apply, Cert.RowScatterAdd.scatterAdd_rows_apply, coeffRows_apply]
  simp only [e1, e2]
  exact scaled_sum_ereal (fun e : Fin M => (dstC (ix2 e 0)).toInt = (n.val : Int)) _ _
    (fun e => d (ix1 (rowOf hN dstNC e))) _ _ (fun e => hh _) (fun e => hd _) (hd _) (zerosNC_apply wt _)
    (fun e he => by rw [hT e n he])

/-- The weighted step keeps real entries real. -/
theorem weightedStep_real (nrm : FVec Ideal ⟨1, ![M]⟩ .f32) (hn : ∀ e, IsReal (nrm e)) (srcC dstC : IVec ⟨2, ![M, 1]⟩ 32)
    (h : FVec Ideal ⟨2, ![N, C]⟩ .f32) (hh : ∀ i, IsReal (h i)) (i : (⟨2, ![N, C]⟩ : Shape).Idx) :
    IsReal (weightedStep wt nrm srcC dstC h i) := by
  unfold weightedStep segSum
  refine isReal_scatterAdd _ _ _ _ (fun j => ?_) (fun j => ?_) i
  · rw [zerosNC_apply]; exact isReal_zero
  · refine isReal_mulf (isReal_gather _ h srcC hh j) ?_
    unfold weightRows broadcastInDim
    exact hn _

/-- The weights are real when the coefficient is. -/
theorem weights_real (d : FVec Ideal ⟨1, ![N]⟩ .f32) (hd : ∀ i, IsReal (d i)) (srcC dstNC : IVec ⟨2, ![M, 1]⟩ 32)
    (e : (⟨1, ![M]⟩ : Shape).Idx) : IsReal (weights wt d srcC dstNC e) :=
  isReal_mulf (isReal_gather _ d srcC hd e) (isReal_gather _ d dstNC hd e)

/-- The coefficient is real: the degree is a finite sum of ones, and the guarded inverse square root of a real is real. -/
theorem coeff_real (dstC : IVec ⟨2, ![M, 1]⟩ 32) (i : (⟨1, ![N]⟩ : Shape).Idx) : IsReal (coeff wt dstC i) := by
  have hdeg : IsReal (degree wt dstC i) := by
    unfold degree
    exact isReal_scatterAdd _ _ _ _ (fun j => real_zero_bits) (fun j => real_one_bits) i
  exact real_guarded_rsqrt_host hdeg real_zero_bits

/-! ### Indices: a message that lands in row n has wrapped target n -/

/-- A word that is nonnegative read signed is left alone by the wrap-around. -/
theorem wrap_of_nonneg (x nW : BitVec 32) (hx : 0 ≤ x.toInt) :
    Scalar.select (IntOp.cmpi .slt x 0#32) (IntOp.addi x nW) x = x := by
  have h : x.slt 0#32 = false := by
    rw [BitVec.slt_eq_decide]
    simpa using hx
  unfold Scalar.select IntOp.cmpi
  simp [h]

/-- With the scatter column the plain targets and the weight column the wrapped targets: the hypothesis of `step_eq`. -/
theorem wrapped_target (hN : 0 < N) (nW : BitVec 32) (dst : IVec ⟨1, ![M]⟩ 32) (e : Fin M) (n : Fin N)
    (h : (col wt dst (ix2 e 0)).toInt = (n.val : Int)) : rowOf hN (col wt (wrapNeg wt nW dst)) e = n := by
  rw [col_apply] at h
  have hw : col wt (wrapNeg wt nW dst) (ix2 e 0) = dst (ix1 e) := by
    rw [col_apply]
    show Scalar.select (IntOp.cmpi .slt (dst (ix1 e)) 0#32) (IntOp.addi (dst (ix1 e)) nW) (dst (ix1 e)) = _
    exact wrap_of_nonneg _ _ (by rw [h]; exact Int.natCast_nonneg _)
  apply Fin.ext
  show min (col wt (wrapNeg wt nW dst) (ix2 e 0)).toInt.toNat (N - 1) = n.val
  rw [hw, h]
  have := n.isLt
  simp only [Int.toNat_natCast]
  omega

end Arrays

end Cert.GcnHop

end
-- ==== Proof.LibPlainProduct.lean ====
/-
  A product of an m×k matrix with the TRANSPOSE of an n×k matrix, read at one entry.

  A linear layer `y = x · Wᵀ` with the weight stored [out, in] prints in a kernel as a `tpu.matmul` of the rows with
  `tpu.transpose W` into a zero accumulator, and on the host as a `dot_general` of the rows with `stablehlo.transpose W`;
  both have the dimension numbers of the plain product (contract the left operand's axis 1 with the right operand's
  axis 0, no batch axis). At the ideal values either one, read at entry (a, b), is the sum over the contracted
  coordinate c of `x (a, c) · W (b, c)`: the accumulator is the zero of the extended reals, which `0 + s = s` drops, and the
  transpose only names the entry (c, b) of its result as the entry (b, c) of its operand. Nothing here needs the entries
  to be finite.
-/
import Idealize.ShloMosaic.Lib.StackMember
import Idealize.ShloMosaic.Lib.KernelVsHost
import Idealize.ShloMosaic.Lib.Pipeline.Value
import Idealize.ShloMosaic.Lib.ValueIdx

noncomputable section

open scoped BigOperators

namespace Idealize.ShloMosaic.PlainProduct

open Idealize.ShloMosaic Idealize.ShloMosaic.ValueIdx

variable {m k n : Nat} {φ₁ φ₂ : FTy}

/-- The transpose of an n×k matrix, read at (c, b), is the matrix at (b, c). -/
theorem transpose_swap_apply {α : Type} (W : (⟨2, ![n, k]⟩ : Shape).Idx → α)
    (h : (⟨2, ![n, k]⟩ : Shape).Transposes [1, 0] ⟨2, ![k, n]⟩) (c : Fin k) (b : Fin n) :
    transpose ⟨2, ![k, n]⟩ [1, 0] W h (ix2 c b) = W (ix2 b c) :=
  transpose_apply [1, 0] W h (ix2 c b) (ix2 b c) fun ax => by
    match ax with
    | ⟨0, _⟩ => rfl
    | ⟨1, _⟩ => rfl

/-- A host `dot_general` whose dimension numbers are the plain product's, read at (a, b): the sum over the contracted
    coordinate of the products of the entries. -/
theorem dotGeneral_of_plain (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂) (a : Fin m) (b : Fin n) :
    Host.dotGeneral D prec A B (ix2 a b) = ∑ c : Fin k, A (ix2 a c) * B (ix2 c b) := by
  subst hD
  exact StackMember.dotGeneral_plain_apply prec A B a b

/-- A kernel's `tpu.matmul` with those dimension numbers into the zero splat, read at (a, b): the same sum. -/
theorem matmul_of_plain (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂) (a : Fin m) (b : Fin n) :
    matmul D prec A B (constant ⟨2, ![m, n]⟩ .f32 0x00000000#32) (ix2 a b) = ∑ c : Fin k, A (ix2 a c) * B (ix2 c b) := by
  rw [matmul_zero_eq_dotGeneral]
  exact dotGeneral_of_plain D hD prec A B a b

/-- THE HOST'S LINEAR LAYER at an entry: `dot_general` of the rows with the transposed weight is `∑ c, x (a, c) · W (b, c)`. -/
theorem dotGeneral_transposed_apply (D : DotDims ⟨2, ![m, k]⟩ ⟨2, ![k, n]⟩ ⟨2, ![m, n]⟩) (hD : D = DotDims.plain m k n)
    (prec : Option ContractPrecision) (A : FVec Ideal ⟨2, ![m, k]⟩ φ₁) (W : FVec Ideal ⟨2, ![n, k]⟩ φ₂)
    (h : (⟨2, ![n, k]⟩ : Shape).Transposes [1, 0] ⟨2, ![k, n]⟩) (a : Fin m) (b : Fin n) :
    Host.dotGeneral D prec A (transpose ⟨2, ![k, n]⟩ [1, 0] W h) (ix2 a b) = ∑ c : Fin k, A (ix2 a c) * W (ix2 b c) := by
  rw [dotGeneral_of_plain D hD]
  exact Finset.sum_congr rfl fun c _ => by rw [transpose_swap_apply]

/-- THE KERNEL'S LINEAR LAYER at an entry: `tpu.matmul` of the rows with the transposed weight into the zero splat is the
    same sum. -/
theorem matmul_transposed_apply (D : DotDims ⟨2, ![m, k]⟩ ⟨2, ![k, n]⟩ ⟨2, ![m, n]⟩) (hD : D = DotDims.plain m k n)
    (prec : Option ContractPrecision) (A : FVec Ideal ⟨2, ![m, k]⟩ φ₁) (W : FVec Ideal ⟨2, ![n, k]⟩ φ₂)
    (h : (⟨2, ![n, k]⟩ : Shape).Transposes [1, 0] ⟨2, ![k, n]⟩) (a : Fin m) (b : Fin n) :
    matmul D prec A (transpose ⟨2, ![k, n]⟩ [1, 0] W h) (constant ⟨2, ![m, n]⟩ .f32 0x00000000#32) (ix2 a b)
      = ∑ c : Fin k, A (ix2 a c) * W (ix2 b c) := by
  rw [matmul_of_plain D hD]
  exact Finset.sum_congr rfl fun c _ => by rw [transpose_swap_apply]

end Idealize.ShloMosaic.PlainProduct

end
-- ==== Proof.Propagation.lean ====
/-
  Three propagation steps and a linear head, in the two arrangements, for any sizes.

  Both programs compute, from a feature table x : [N, C], message sources and targets (index vectors of length M), a
  weight W : [K, C] and a bias b : [K]:

      h₀ = x,   h_{k+1}(n, c) = Σ_{e : target e = n} h_k(source e, c) · d(source e) · d(n),   out = h₃ · Wᵀ + b,

  d the inverse square root of the in-degree (zero where the degree is not positive). The reference multiplies each
  message by the weight d(source) · d(target) before adding (three weighted steps); the other arrangement keeps the
  table multiplied by d, adds the gathered rows and multiplies the sums by d (three scaled steps), and leaves the last
  multiplication by d to the linear head, which contracts the rows (s₃(n, ·) · d(n)) with W. Each scaled step equals the
  weighted step on real entries (one use of distributivity per step), the weighted step keeps entries real, and the
  heads then contract equal rows.
-/
import proofs.«123916_j51213190037917_2_alg».proof.Proof.LibGcnHop
import proofs.«123916_j51213190037917_2_alg».proof.Proof.LibPlainProduct
import proofs.«123916_j51213190037917_2_alg».proof.Proof.LibHostRowForms

noncomputable section

open scoped BigOperators

namespace Cert.Propagation

open Idealize.ShloMosaic Idealize.ShloMosaic.ValueIdx Idealize.ShloMosaic.SegmentRows
open Cert.LibRealEntries Cert.LibRealHostOps Cert.GcnHop

section Steps
variable {N M C : ℕ} (wt : Wit N M C) (nW : BitVec 32)

/-- The source column: the sources wrapped where negative, as a column. -/
def srcCol (src : IVec ⟨1, ![M]⟩ 32) : IVec ⟨2, ![M, 1]⟩ 32 := col wt (wrapNeg wt nW src)
/-- The coefficient vector d of the targets. -/
def coeffOf (dst : IVec ⟨1, ![M]⟩ 32) : FVec Ideal ⟨1, ![N]⟩ .f32 := coeff wt (col wt dst)
/-- The message weights d(source) · d(target). -/
def weightsOf (src dst : IVec ⟨1, ![M]⟩ 32) : FVec Ideal ⟨1, ![M]⟩ .f32 :=
  weights wt (coeffOf wt dst) (srcCol wt nW src) (col wt (wrapNeg wt nW dst))
/-- One weighted step. -/
def refStep (src dst : IVec ⟨1, ![M]⟩ 32) (h : FVec Ideal ⟨2, ![N, C]⟩ .f32) : FVec Ideal ⟨2, ![N, C]⟩ .f32 :=
  weightedStep wt (weightsOf wt nW src dst) (srcCol wt nW src) (col wt dst) h
/-- Three weighted steps from x. -/
def refRows (x : FVec Ideal ⟨2, ![N, C]⟩ .f32) (src dst : IVec ⟨1, ![M]⟩ 32) : FVec Ideal ⟨2, ![N, C]⟩ .f32 :=
  refStep wt nW src dst (refStep wt nW src dst (refStep wt nW src dst x))
/-- d copied along the rows. -/
def dRows (dst : IVec ⟨1, ![M]⟩ 32) : FVec Ideal ⟨2, ![N, C]⟩ .f32 := coeffRows wt (coeffOf wt dst)
/-- d as a column. -/
def dCol (dst : IVec ⟨1, ![M]⟩ 32) : FVec Ideal ⟨2, ![N, 1]⟩ .f32 := coeffCol wt (coeffOf wt dst)
/-- One scaled step, from a table already multiplied by d. -/
def kerStep (src dst : IVec ⟨1, ![M]⟩ 32) (g : FVec Ideal ⟨2, ![N, C]⟩ .f32) : FVec Ideal ⟨2, ![N, C]⟩ .f32 :=
  scaledStep wt (coeffOf wt dst) (srcCol wt nW src) (col wt dst) g
/-- Two scaled steps from x · d, the result multiplied by d and gathered and added once more: the third step's sums,
    not yet multiplied by d. -/
def kerRows (x : FVec Ideal ⟨2, ![N, C]⟩ .f32) (src dst : IVec ⟨1, ![M]⟩ 32) : FVec Ideal ⟨2, ![N, C]⟩ .f32 :=
  segSum wt (col wt dst) (takeRows wt (srcCol wt nW src)
    (mulf (F := Ideal) (kerStep wt nW src dst (mulf (F := Ideal) (kerStep wt nW src dst (mulf (F := Ideal) x (dRows wt dst))) (dRows wt dst)))
      (dRows wt dst)))

theorem kerStep_eq (hN : 0 < N) (src dst : IVec ⟨1, ![M]⟩ 32) (h : FVec Ideal ⟨2, ![N, C]⟩ .f32) (hh : ∀ i, IsReal (h i)) :
    kerStep wt nW src dst (mulf (F := Ideal) h (dRows wt dst)) = refStep wt nW src dst h :=
  step_eq wt hN (coeffOf wt dst) (coeff_real wt _) (srcCol wt nW src) (col wt dst) (col wt (wrapNeg wt nW dst))
    (fun e n he => wrapped_target wt hN nW dst e n he) h hh

theorem refStep_real (src dst : IVec ⟨1, ![M]⟩ 32) (h : FVec Ideal ⟨2, ![N, C]⟩ .f32) (hh : ∀ i, IsReal (h i))
    (i : (⟨2, ![N, C]⟩ : Shape).Idx) : IsReal (refStep wt nW src dst h i) :=
  weightedStep_real wt _ (weights_real wt _ (coeff_real wt _) _ _) _ _ h hh i

/-- THE ROWS AGREE: the third step's sums times d are the reference's rows, for a real table x. -/
theorem rows_eq (hN : 0 < N) (x : FVec Ideal ⟨2, ![N, C]⟩ .f32) (hx : ∀ i, IsReal (x i)) (src dst : IVec ⟨1, ![M]⟩ 32) :
    mulf (F := Ideal) (kerRows wt nW x src dst) (dRows wt dst) = refRows wt nW x src dst := by
  show kerStep wt nW src dst (mulf (F := Ideal) (kerStep wt nW src dst (mulf (F := Ideal)
    (kerStep wt nW src dst (mulf (F := Ideal) x (dRows wt dst))) (dRows wt dst))) (dRows wt dst)) = _
  rw [kerStep_eq wt nW hN src dst x hx,
    kerStep_eq wt nW hN src dst _ (refStep_real wt nW src dst x hx),
    kerStep_eq wt nW hN src dst _ (refStep_real wt nW src dst _ (refStep_real wt nW src dst x hx))]
  rfl

/-- The same at an entry, with d read off its column. -/
theorem rows_eq_apply (hN : 0 < N) (x : FVec Ideal ⟨2, ![N, C]⟩ .f32) (hx : ∀ i, IsReal (x i)) (src dst : IVec ⟨1, ![M]⟩ 32)
    (n : Fin N) (c : Fin C) :
    kerRows wt nW x src dst (ix2 n c) * dCol wt dst (ix2 n 0) = refRows wt nW x src dst (ix2 n c) := by
  rw [← rows_eq wt nW hN x hx src dst]
  show _ = kerRows wt nW x src dst (ix2 n c) * dRows wt dst (ix2 n c)
  unfold dCol dRows
  rw [coeffCol_apply, coeffRows_apply]

end Steps

/-! ## The linear head -/

/-- The side conditions of the head's shapes. -/
structure WitL (N C K : ℕ) : Prop where
  tr : (⟨2, ![K, C]⟩ : Shape).Transposes [1, 0] ⟨2, ![C, K]⟩
  dot : DotDims.WF ⟨2, ![N, C]⟩ ⟨2, ![C, K]⟩ ⟨2, ![N, K]⟩ [1] [0] [0] [1] [] []
  bK_1K : (⟨1, ![K]⟩ : Shape).BroadcastsInDim ⟨2, ![1, K]⟩ ![1]
  b1K_NK : (⟨2, ![1, K]⟩ : Shape).BroadcastsInDim ⟨2, ![N, K]⟩ ![0, 1]

section Head
variable {N M C K : ℕ} (wt : Wit N M C) (wl : WitL N C K) (nW : BitVec 32)

/-- The plain product's dimension numbers, for any witness of their side conditions. -/
abbrev linDims : DotDims ⟨2, ![N, C]⟩ ⟨2, ![C, K]⟩ ⟨2, ![N, K]⟩ where
  lhsContracting := [1]
  rhsContracting := [0]
  lhsNonContracting := [0]
  rhsNonContracting := [1]
  lhsBatch := []
  rhsBatch := []
  wf := wl.dot

/-- The reference's head: rows times the transposed weight, plus the bias copied down the rows. -/
def refHead (h : FVec Ideal ⟨2, ![N, C]⟩ .f32) (W : FVec Ideal ⟨2, ![K, C]⟩ .f32) (b : FVec Ideal ⟨1, ![K]⟩ .f32) :
    FVec Ideal ⟨2, ![N, K]⟩ .f32 :=
  addf (F := Ideal) (Host.dotGeneral (F := Ideal) (linDims wl) none h (transpose ⟨2, ![C, K]⟩ [1, 0] W wl.tr))
    (broadcastInDim ⟨2, ![N, K]⟩ ![0, 1] wl.b1K_NK (broadcastInDim ⟨2, ![1, K]⟩ ![1] wl.bK_1K b))

theorem refHead_apply (h : FVec Ideal ⟨2, ![N, C]⟩ .f32) (W : FVec Ideal ⟨2, ![K, C]⟩ .f32) (b : FVec Ideal ⟨1, ![K]⟩ .f32)
    (n : Fin N) (o : Fin K) : refHead wl h W b (ix2 n o) = (∑ c : Fin C, h (ix2 n c) * W (ix2 o c)) + b (ix1 o) := by
  show Host.dotGeneral (F := Ideal) (linDims wl) none h (transpose ⟨2, ![C, K]⟩ [1, 0] W wl.tr) (ix2 n o)
    + broadcastInDim ⟨2, ![N, K]⟩ ![0, 1] wl.b1K_NK (broadcastInDim ⟨2, ![1, K]⟩ ![1] wl.bK_1K b) (ix2 n o) = _
  rw [PlainProduct.dotGeneral_transposed_apply (linDims wl) rfl none h W wl.tr n o,
    Cert.HostRowForms.bcast_1b_ab_apply _ _ rfl, Cert.HostRowForms.bcast_b_1b_apply _ _ rfl]

/-- The other arrangement's output, entry by entry: the rows (sums · d) contracted with W, plus the bias. -/
def kerOut (x : FVec Ideal ⟨2, ![N, C]⟩ .f32) (src dst : IVec ⟨1, ![M]⟩ 32) (W : FVec Ideal ⟨2, ![K, C]⟩ .f32)
    (b : FVec Ideal ⟨1, ![K]⟩ .f32) : FVec Ideal ⟨2, ![N, K]⟩ .f32 := fun j =>
  (∑ c : Fin C, (kerRows wt nW x src dst (ix2 (j 0) c) * dCol wt dst (ix2 (j 0) 0)) * W (ix2 (j 1) c)) + b (ix1 (j 1))

/-- THE OUTPUTS AGREE for a real table x. -/
theorem out_eq (hN : 0 < N) (x : FVec Ideal ⟨2, ![N, C]⟩ .f32) (hx : ∀ i, IsReal (x i)) (src dst : IVec ⟨1, ![M]⟩ 32)
    (W : FVec Ideal ⟨2, ![K, C]⟩ .f32) (b : FVec Ideal ⟨1, ![K]⟩ .f32) :
    kerOut wt nW x src dst W b = refHead wl (refRows wt nW x src dst) W b := by
  funext j
  obtain ⟨n, o, rfl⟩ : ∃ (n : Fin N) (o : Fin K), j = ix2 n o := ⟨j 0, j 1, eq_ix2 j⟩
  rw [refHead_apply]
  show (∑ c : Fin C, (kerRows wt nW x src dst (ix2 n c) * dCol wt dst (ix2 n 0)) * W (ix2 o c)) + b (ix1 o) = _
  refine congrArg (· + b (ix1 o)) (Finset.sum_congr rfl fun c _ => ?_)
  rw [rows_eq_apply wt nW hN x hx src dst n c]

end Head

end Cert.Propagation

end
-- ==== Proof.Sizes.lean ====
/-
  The sizes of this graph: 100000 nodes, 1600000 edges and one self loop per node (1700000 messages), 128 channels in
  and out. The side conditions of every array shape the propagation steps and the linear head are stated over, decided
  once; both programs' arrays are then read against the same records.
-/
import proofs.«123916_j51213190037917_2_alg».proof.Proof.Propagation

namespace Cert.Sizes

open Idealize.ShloMosaic

/-- The steps' shapes. -/
theorem wt : Cert.GcnHop.Wit 100000 1700000 128 where
  b0_N := by decide
  b0_M := by decide
  b0_NC := by decide
  bM_M1 := by decide
  bM1_MC := by decide
  bN1_NC := by decide
  cN_N1 := by decide
  sc1 := by decide
  g1 := by decide
  g2 := by decide
  sc2 := by decide

/-- The head's shapes. -/
theorem wl : Cert.Propagation.WitL 100000 128 128 where
  tr := by decide
  dot := by decide
  bK_1K := by decide
  b1K_NK := by decide

/-- There is a node. -/
theorem hN : 0 < 100000 := by decide

end Cert.Sizes
-- ==== Proof.KernelHost.lean ====
/-
  What the host operations in front of the dense head leave in the arrays the head reads, at the extended reals.

  The program's own lines before the launch compute the message sources and targets from the edge list, the in-degree
  coefficient, and three rounds of multiply-by-the-coefficient, gather, scatter-add, multiply-by-the-coefficient; the
  last round's sums are handed to the head unscaled, together with the coefficient as a column and the bias as a row.
  Read back operation by operation, these are the arrays `kerRows`, `dCol` of the propagation steps, and the bias
  vector reshaped to one row.
-/
import proofs.«123916_j51213190037917_2_alg».proof.Proof.Gen.KernelIdeal.Frame
import Idealize.ShloMosaic.Lib.StableHlo.Run
import proofs.«123916_j51213190037917_2_alg».proof.Proof.LibJoinForms
import proofs.«123916_j51213190037917_2_alg».proof.Proof.Propagation
import proofs.«123916_j51213190037917_2_alg».proof.Proof.Sizes

noncomputable section

namespace Cert.KernelIdeal.HostSide

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The message sources: row 0 of the edge list, then every node (the self loops). -/
def srcOf (a1 : (⟨S2x1600000, .i32⟩ : BufTy).Contents (Elt Ideal)) : IVec S1700000 32 :=
  JoinForms.cat2 S1700000 0 S1600000 S100000 concatenates_S1600000_S100000_S1700000_d0
    (shapeCast S1600000 (extractStridedSlice S1x1600000 ![0, 0] a1 slices_S2x1600000_S1x1600000_0_0) shapeCasts_S1x1600000_S1600000)
    (iotaInDim S100000 32 0)

/-- The message targets: row 1 of the edge list, then every node. -/
def dstOf (a1 : (⟨S2x1600000, .i32⟩ : BufTy).Contents (Elt Ideal)) : IVec S1700000 32 :=
  JoinForms.cat2 S1700000 0 S1600000 S100000 concatenates_S1600000_S100000_S1700000_d0
    (shapeCast S1600000 (extractStridedSlice S1x1600000 ![1, 0] a1 slices_S2x1600000_S1x1600000_1_0) shapeCasts_S1x1600000_S1600000)
    (iotaInDim S100000 32 0)

set_option maxRecDepth 8192 in
set_option maxHeartbeats 37200000 in
/-- The head's first operand: the third round's sums, not yet multiplied by the coefficient. -/
theorem V_rows (c : Dev nD) :
    (V m c main_v55 : S100000x128.Idx → EReal)
      = Cert.Propagation.kerRows Cert.Sizes.wt 100000#32 (m ((c : Thread nD τ).loc main_arg0))
          (srcOf (m ((c : Thread nD τ).loc main_arg1))) (dstOf (m ((c : Thread nD τ).loc main_arg1))) := by
  dsimp only [Gen.V]
  simp (disch := decide) only [hostOps0, hostOps0_1, hostOps0_2, List.flatten_cons, List.flatten_nil, List.append_nil,
    List.cons_append, List.nil_append, after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', JoinForms.concat_cat2, cast_eq]
  rfl

set_option maxRecDepth 8192 in
set_option maxHeartbeats 37200000 in
/-- The head's second operand: the coefficient as a column. -/
theorem V_dcol (c : Dev nD) :
    (V m c main_v15 : S100000x1.Idx → EReal)
      = Cert.Propagation.dCol Cert.Sizes.wt (dstOf (m ((c : Thread nD τ).loc main_arg1))) := by
  dsimp only [Gen.V]
  simp (disch := decide) only [hostOps0, hostOps0_1, hostOps0_2, List.flatten_cons, List.flatten_nil, List.append_nil,
    List.cons_append, List.nil_append, after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', JoinForms.concat_cat2, cast_eq]
  rfl

set_option maxRecDepth 8192 in
set_option maxHeartbeats 37200000 in
/-- The head's fourth operand: the bias vector as one row. -/
theorem V_bias (c : Dev nD) :
    (V m c main_v56 : S1x128.Idx → EReal)
      = shapeCast S1x128 (m ((c : Thread nD τ).loc main_arg3)) shapeCasts_S128_S1x128 := by
  dsimp only [Gen.V]
  simp (disch := decide) only [hostOps0, hostOps0_1, hostOps0_2, List.flatten_cons, List.flatten_nil, List.append_nil,
    List.cons_append, List.nil_append, after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', JoinForms.concat_cat2, cast_eq]
  rfl

end Cert.KernelIdeal.HostSide

end
-- ==== Proof.LibRowLayout.lean ====
/-
  A vector laid out as a one-row matrix, two ways, and a one-row matrix copied down the rows.

  A bias vector of n entries meets an R×n table as a one-row matrix copied down the R rows. A kernel gets the row by a
  reshape of the vector to 1×n on the host and copies it with `vector.broadcast`; jnp gets it by a broadcast of the vector
  into dimension 1 of a 1×n matrix and a second broadcast down the rows. The two one-row matrices are the same matrix
  (`rowLayout`: entry (0, k) of either is entry k of the vector), and the kernel's copy, read at (r, k), is the row at
  (0, k) (`rowBroadcast_apply`). Stated for any entry type and any sizes; n = 1 is a bias cell met with a column.
-/
import Idealize.ShloMosaic.Lib.Pipeline.Value
import Idealize.ShloMosaic.Lib.ValueIdx

noncomputable section

namespace Idealize.ShloMosaic.RowLayout

open Idealize.ShloMosaic Idealize.ShloMosaic.ValueIdx

/-- A one-row matrix copied down R rows (a kernel's `vector.broadcast` of 1×n to R×n), read at (r, k), is the row at (0, k). -/
theorem rowBroadcast_apply {α : Type} {R n : ℕ} (x : (⟨2, ![1, n]⟩ : Shape).Idx → α)
    (h : (⟨2, ![1, n]⟩ : Shape).Broadcasts ⟨2, ![R, n]⟩) (r : Fin R) (k : Fin n) :
    broadcastTo ⟨2, ![R, n]⟩ x h (ix2 r k) = x (ix2 (0 : Fin 1) k) := by
  refine broadcastTo_apply x h (ix2 r k) (ix2 (0 : Fin 1) k) fun a => ?_
  match a with
  | ⟨0, _⟩ => rfl
  | ⟨1, _⟩ =>
    show k.val = if n = 1 then 0 else k.val
    split_ifs with hn
    · have := k.isLt; omega
    · rfl

/-- A vector of n entries broadcast into dimension 1 of a 1×n matrix, read at (z, k), is the vector at k. -/
theorem rowOfVector_apply {α : Type} {n : ℕ} (b : (⟨1, ![n]⟩ : Shape).Idx → α)
    (h : (⟨1, ![n]⟩ : Shape).BroadcastsInDim ⟨2, ![1, n]⟩ ![1]) (z : Fin 1) (k : Fin n) :
    broadcastInDim ⟨2, ![1, n]⟩ ![1] h b (ix2 z k) = b (ix1 k) := by
  refine broadcastInDim_apply ![1] h b (ix2 z k) (ix1 k) fun a => ?_
  match a with
  | ⟨0, _⟩ =>
    show k.val = if n = 1 then 0 else k.val
    split_ifs with hn
    · have := k.isLt; omega
    · rfl

/-- A vector of n entries reshaped to 1×n is the vector broadcast into dimension 1 of a 1×n matrix. -/
theorem rowLayout {α : Type} {n : ℕ} (b : (⟨1, ![n]⟩ : Shape).Idx → α) (h : (⟨1, ![n]⟩ : Shape).ShapeCasts ⟨2, ![1, n]⟩)
    (h' : (⟨1, ![n]⟩ : Shape).BroadcastsInDim ⟨2, ![1, n]⟩ ![1]) :
    shapeCast ⟨2, ![1, n]⟩ b h = broadcastInDim ⟨2, ![1, n]⟩ ![1] h' b := by
  funext j
  obtain ⟨z, k, rfl⟩ : ∃ (z : Fin 1) (k : Fin n), j = ix2 z k := ⟨j 0, j 1, eq_ix2 j⟩
  rw [rowOfVector_apply b h' z k]
  refine (shapeCast_addUnit_apply ![n] b h (ix2 z k)).trans (congrArg b (funext fun a => ?_))
  match a with
  | ⟨0, _⟩ => rfl

end Idealize.ShloMosaic.RowLayout

end
-- ==== Proof.Payload.lean ====
/-
  One block of the dense head, entry by entry, at the extended reals.

  The head's body takes a block of 5000 rows (x0 : [5000, 128]), the coefficient's 5000 entries as a column
  (x1 : [5000, 1]), the whole weight (x2 : [128, 128], stored [out, in]) and the bias row (x3 : [1, 128]). It multiplies
  the rows by the column copied along the lanes, narrows both operands to bf16 (the identity on extended reals), transposes
  the weight, contracts into a zero accumulator and adds the bias row copied down the rows. Entry (p, o) is therefore
      Σ_c (x0(p, c) · x1(p, 0)) · x2(o, c) + x3(0, o).
-/
import proofs.«123916_j51213190037917_2_alg».proof.Proof.Gen.KernelIdeal.Skeleton
import Idealize.ShloMosaic.Lib.Pipeline.Value
import Idealize.ShloMosaic.Lib.ValueIdx
import proofs.«123916_j51213190037917_2_alg».proof.Proof.LibPlainProduct
import proofs.«123916_j51213190037917_2_alg».proof.Proof.LibColumnForms
import proofs.«123916_j51213190037917_2_alg».proof.Proof.LibRowLayout

noncomputable section

open scoped BigOperators

namespace Cert.KernelIdeal.Payload

open Cert.KernelIdeal Cert.KernelIdeal.Gen Idealize.ShloMosaic Idealize.ShloMosaic.ValueIdx

/-- The head's contraction has the dimension numbers of the plain product. -/
theorem dot_plain : dot_S5000x128_S128x128_S5000x128_1_0_0_1_n_n = DotDims.plain 5000 128 128 := rfl

/-- ENTRY (p, o) OF A BLOCK'S RESULT. -/
theorem pay_apply (x0 : Vec Ideal S5000x128 .f32) (x1 : Vec Ideal S5000x1 .f32) (x2 : Vec Ideal S128x128 .f32)
    (x3 : Vec Ideal S1x128 .f32) (p : Fin 5000) (o : Fin 128) :
    k0_pay1 (F := Ideal) x0 x1 x2 x3 (ix2 p o)
      = (∑ c : Fin 128, (x0 (ix2 p c) * x1 (ix2 p 0)) * x2 (ix2 o c)) + x3 (ix2 0 o) := by
  unfold k0_pay1
  refine (congrArg₂ (fun a b : EReal => a + b)
    (PlainProduct.matmul_transposed_apply dot_S5000x128_S128x128_S5000x128_1_0_0_1_n_n dot_plain none _ _ _ p o)
    (RowLayout.rowBroadcast_apply _ _ p o)).trans ?_
  refine congrArg₂ (fun a b : EReal => a + b) (Finset.sum_congr rfl fun c _ => ?_) ?_
  · show (shapeCast S5000x128 x0 _ (ix2 p c) * broadcastTo S5000x128 (shapeCast S5000x1 x1 _) _ (ix2 p c)) * x2 (ix2 o c) = _
    rw [shapeCast_self, Cert.ColumnForms.broadcastTo_a1_ab_apply, shapeCast_self]
  · rw [shapeCast_self]

/-- The same at any index of the block, its coordinates read off the index. -/
theorem pay_at (x0 : Vec Ideal S5000x128 .f32) (x1 : Vec Ideal S5000x1 .f32) (x2 : Vec Ideal S128x128 .f32)
    (x3 : Vec Ideal S1x128 .f32) (y : S5000x128.Idx) :
    k0_pay1 (F := Ideal) x0 x1 x2 x3 y
      = (∑ c : Fin 128, (x0 (ix2 (y 0) c) * x1 (ix2 (y 0) 0)) * x2 (ix2 (y 1) c)) + x3 (ix2 0 (y 1)) := by
  obtain ⟨p, o, rfl⟩ : ∃ (p : Fin 5000) (o : Fin 128), y = ix2 p o := ⟨y 0, y 1, eq_ix2 y⟩
  exact pay_apply x0 x1 x2 x3 p o

/-- The bias vector reshaped to one row, read at (0, o), is the vector at o. -/
theorem bias_row (b : S128.Idx → EReal) (h : S128.ShapeCasts S1x128) (o : Fin 128) :
    shapeCast S1x128 b h (ix2 0 o) = b (ix1 o) :=
  shapeCast_apply b h _ _ (by
    rw [Shape.rowMajor_val_two, Shape.rowMajor_val_one]
    show o.val = 0 * 128 + o.val
    omega)

end Cert.KernelIdeal.Payload

end
-- ==== Proof.BlockReads.lean ====
/-
  The blocks the dense head reads, as entries of the whole arrays.

  At grid point t the head's row windows (the third round's sums, the coefficient column) hold rows 5000·t … 5000·t + 4999
  of their arrays, and the weight and bias windows hold their whole arrays: entry (p, k) of the row block is entry
  (5000·t + p, k) of the array. `out` is the function of the whole arrays that the output will be shown to hold.
-/
import proofs.«123916_j51213190037917_2_alg».proof.Proof.Gen.KernelIdeal.Value
import proofs.«123916_j51213190037917_2_alg».proof.Proof.KernelHost
import proofs.«123916_j51213190037917_2_alg».proof.Proof.Payload

set_option maxRecDepth 16384

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- THE OUTPUT as one function of the argument arrays. -/
def out (c : Dev nD) : S100000x128.Idx → EReal :=
  Cert.Propagation.kerOut Cert.Sizes.wt 100000#32 (m ((c : Thread nD τ).loc main_arg0))
    (HostSide.srcOf (m ((c : Thread nD τ).loc main_arg1))) (HostSide.dstOf (m ((c : Thread nD τ).loc main_arg1)))
    (m ((c : Thread nD τ).loc main_arg2)) (m ((c : Thread nD τ).loc main_arg3))

/-- `out` at (r, o). -/
theorem out_apply (c : Dev nD) (r : Fin 100000) (o : Fin 128) :
    out m c (ix2 r o)
      = (∑ k : Fin 128, (Cert.Propagation.kerRows Cert.Sizes.wt 100000#32 (m ((c : Thread nD τ).loc main_arg0))
            (HostSide.srcOf (m ((c : Thread nD τ).loc main_arg1))) (HostSide.dstOf (m ((c : Thread nD τ).loc main_arg1))) (ix2 r k)
          * Cert.Propagation.dCol Cert.Sizes.wt (HostSide.dstOf (m ((c : Thread nD τ).loc main_arg1))) (ix2 r 0))
          * (m ((c : Thread nD τ).loc main_arg2) : S128x128.Idx → EReal) (ix2 o k))
        + (m ((c : Thread nD τ).loc main_arg3) : S128.Idx → EReal) (ix1 o) := rfl

/-- The printed index maps over the grid: the row blocks move with the point, the weight and the bias stay. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-! ## The input blocks read off the arrays -/

theorem read_rows (c : Dev nD) (t : Fin cfg0.N) (p : Fin 5000) (k : Fin 128) (r : Fin 100000)
    (hr : r.val = t.val * 5000 + p.val) : iblk m c 0 t (ix2 p k) = V m c main_v55 (ix2 r k) := by
  obtain ⟨e0, e1, -⟩ := idx_facts t
  have h : ((cfg0.win 0).blk t).view.emb (ix2 p k) = ix2 r k := by
    funext a; apply Fin.ext
    match a with
    | ⟨0, _⟩ => show win0_0.index t (0 : Fin 2) * 5000 + 1 * p.val = r.val; rw [e0, hr]; omega
    | ⟨1, _⟩ => show win0_0.index t (1 : Fin 2) * 128 + 1 * k.val = k.val; rw [e1]; omega
  unfold iblk
  rw [View.read_apply, cast_eq, h]

theorem read_col (c : Dev nD) (t : Fin cfg0.N) (p : Fin 5000) (r : Fin 100000)
    (hr : r.val = t.val * 5000 + p.val) : iblk m c 1 t (ix2 p 0) = V m c main_v15 (ix2 r 0) := by
  obtain ⟨-, -, e2, e3, -⟩ := idx_facts t
  have h : ((cfg0.win 1).blk t).view.emb (ix2 p 0) = ix2 r 0 := by
    funext a; apply Fin.ext
    match a with
    | ⟨0, _⟩ => show win0_1.index t (0 : Fin 2) * 5000 + 1 * p.val = r.val; rw [e2, hr]; omega
    | ⟨1, _⟩ => show win0_1.index t (1 : Fin 2) * 1 + 1 * 0 = 0; rw [e3]
  unfold iblk
  rw [View.read_apply, cast_eq, h]

theorem read_weight (c : Dev nD) (t : Fin cfg0.N) (o k : Fin 128) :
    iblk m c 2 t (ix2 o k) = V m c main_arg2 (ix2 o k) := by
  obtain ⟨-, -, -, -, e4, e5, -⟩ := idx_facts t
  have h : ((cfg0.win 2).blk t).view.emb (ix2 o k) = ix2 o k := by
    funext a; apply Fin.ext
    match a with
    | ⟨0, _⟩ => show win0_2.index t (0 : Fin 2) * 128 + 1 * o.val = o.val; rw [e4]; omega
    | ⟨1, _⟩ => show win0_2.index t (1 : Fin 2) * 128 + 1 * k.val = k.val; rw [e5]; omega
  unfold iblk
  rw [View.read_apply, cast_eq, h]

theorem read_bias (c : Dev nD) (t : Fin cfg0.N) (o : Fin 128) :
    iblk m c 3 t (ix2 0 o) = V m c main_v56 (ix2 0 o) := by
  obtain ⟨-, -, -, -, -, -, e6, e7, -⟩ := idx_facts t
  have h : ((cfg0.win 3).blk t).view.emb (ix2 0 o) = ix2 0 o := by
    funext a; apply Fin.ext
    match a with
    | ⟨0, _⟩ => show win0_3.index t (0 : Fin 2) * 1 + 1 * 0 = 0; rw [e6]
    | ⟨1, _⟩ => show win0_3.index t (1 : Fin 2) * 128 + 1 * o.val = o.val; rw [e7]; omega
  unfold iblk
  rw [View.read_apply, cast_eq, h]

end Cert.KernelIdeal.Blocks

end
-- ==== Proof.Flushed.lean ====
/-
  What a grid point writes back is its block of `out`.

  Entry (p, o) of point t's result is Σ_c (x0(p, c) · x1(p, 0)) · x2(o, c) + x3(0, o) of the blocks it read; those are
  rows 5000·t + p of the sums and of the coefficient, the weight and the bias, so the entry is `out` at (5000·t + p, o) —
  the array index the output window's block gives to (p, o).
-/
import proofs.«123916_j51213190037917_2_alg».proof.Proof.Gen.KernelIdeal.Value
import proofs.«123916_j51213190037917_2_alg».proof.Proof.KernelHost
import proofs.«123916_j51213190037917_2_alg».proof.Proof.Payload
import proofs.«123916_j51213190037917_2_alg».proof.Proof.BlockReads

set_option maxRecDepth 16384

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## What a point writes back -/

/-- WHAT POINT t WRITES BACK is block t of `out`. -/
theorem flushed_eq (c : Dev nD) (t : Fin cfg0.N) :
    (dats m 0 c).flushed 4 t = ((cfg0.win 4).blk t).view.read (Elt Ideal) (out m c) := by
  rw [Value.flushed4]
  unfold out0_4
  rw [View.canon_unit_zero hz]
  simp only [View.ld_unit_zero (S := S5000x128) hz, View.ld_unit_zero (S := S5000x1) hz,
    View.ld_unit_zero (S := S128x128) hz, View.ld_unit_zero (S := S1x128) hz]
  obtain ⟨-, -, -, -, -, -, -, -, e8, e9⟩ := idx_facts t
  funext y
  rw [View.read_apply, cast_eq]
  obtain ⟨r, o, he⟩ : ∃ (r : Fin 100000) (o : Fin 128),
      ((View.whole main_v57).slice ((win0 4).rect t)).emb y = ix2 r o := ⟨_, _, eq_ix2 _⟩
  have h0 : ((((View.whole main_v57).slice ((win0 4).rect t)).emb y) 0).val
      = win0_4.index t (0 : Fin 2) * 5000 + 1 * (y 0).val := rfl
  have h1 : ((((View.whole main_v57).slice ((win0 4).rect t)).emb y) 1).val
      = win0_4.index t (1 : Fin 2) * 128 + 1 * (y 1).val := rfl
  rw [he] at h0 h1
  have hr : r.val = t.val * 5000 + ((win0 4).xinj (grid0.coords t) y 0).val := by
    have h0' : r.val = win0_4.index t (0 : Fin 2) * 5000 + 1 * (y 0).val := h0
    rw [e8] at h0'
    show r.val = t.val * 5000 + (y 0).val
    omega
  have ho : ((win0 4).xinj (grid0.coords t) y 1 : Fin 128) = o := by
    have h1' : o.val = win0_4.index t (1 : Fin 2) * 128 + 1 * (y 1).val := h1
    rw [e9] at h1'
    apply Fin.ext
    show (y 1).val = o.val
    omega
  rw [he, out_apply]
  refine (Payload.pay_at (iblk m c 0 t) (iblk m c 1 t) (iblk m c 2 t) (iblk m c 3 t)
    ((win0 4).xinj (grid0.coords t) y)).trans ?_
  refine congrArg₂ (fun a b : EReal => a + b) (Finset.sum_congr rfl fun k _ => ?_) ?_
  · rw [read_rows m c t ((win0 4).xinj (grid0.coords t) y 0) k r hr,
      read_col m c t ((win0 4).xinj (grid0.coords t) y 0) r hr,
      read_weight m c t ((win0 4).xinj (grid0.coords t) y 1) k, HostSide.V_rows, HostSide.V_dcol, V_main_arg2, ho]
  · rw [read_bias m c t ((win0 4).xinj (grid0.coords t) y 1), HostSide.V_bias, ho]
    exact Payload.bias_row _ _ o

end Cert.KernelIdeal.Blocks

end
-- ==== Proof.Blocks.lean ====
/-
  From blocks to the array: after the run the output array is `out`.

  Row r of the output lies in the block of grid point r / 5000, every point writes its block back, and each block is the
  block of `out`; so the array ends holding `out`, the arguments unchanged.
-/
import proofs.«123916_j51213190037917_2_alg».proof.Proof.Gen.KernelIdeal.Value
import proofs.«123916_j51213190037917_2_alg».proof.Proof.KernelHost
import proofs.«123916_j51213190037917_2_alg».proof.Proof.Payload
import proofs.«123916_j51213190037917_2_alg».proof.Proof.BlockReads
import proofs.«123916_j51213190037917_2_alg».proof.Proof.Flushed

set_option maxRecDepth 16384

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The cover, the array and the run -/

/-- An index is in point t's block iff each coordinate is in the block's range on its axis. -/
theorem mem_blk (t : Fin cfg0.N) (i : S100000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole main_v57).slice (win0_4.rect t)).set ↔ _
  rw [View.set_slice_whole, Rect.mem_set_unit]
  exact Iff.rfl

/-- Row r lies in the block of point r / 5000. -/
theorem cover (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 :=
    ⟨⟨(i 0).val / 5000, by rw [hN]; omega⟩, rfl⟩
  obtain ⟨-, -, -, -, -, -, -, -, e8, e9⟩ := idx_facts t
  refine ⟨t, flush0_4 t, ?_⟩
  rw [mem_blk]
  intro a
  match a with
  | ⟨0, _⟩ =>
    show win0_4.index t (0 : Fin 2) * 5000 ≤ (i 0).val ∧ (i 0).val < win0_4.index t (0 : Fin 2) * 5000 + 5000
    rw [e8, ht]; omega
  | ⟨1, _⟩ =>
    show win0_4.index t (1 : Fin 2) * 128 ≤ (i 1).val ∧ (i 1).val < win0_4.index t (1 : Fin 2) * 128 + 128
    rw [e9]; omega

/-- THE OUTPUT ARRAY after the run. -/
theorem final (c : Dev nD) : (dats m 0 c).arrAt 4 cfg0.N = out m c :=
  (dats m 0 c).arrAt_eq_of_cover 4 (out m c) (fun t _ => flushed_eq m c t) cover

/-- The run, with the output array at `out` and the arguments unchanged. -/
theorem run : θ_run defs (onTc (τ := τ) (main (F := Ideal))) ⟨m, fun _ => 0, ρ⟩ fun r => ∀ c : Dev nD,
      r.2.mem ((c : Thread nD τ).loc main_v57) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Blocks

end
-- ==== Proof.Finite.lean ====
/-
  Finite inputs have real entries.

  The precondition says, of the feature table among others, that every entry is strictly below +∞ in absolute value
  (jnp.all(|x| < inf), printed as a reduction by `and` of the entrywise comparisons from the constant 1). An extended
  real whose absolute value max(x, −x) is below +∞ is neither infinity: it is a real number.
-/
import proofs.«123916_j51213190037917_2_alg».proof.Pre_finite_inputs
import Idealize.ShloMosaic.Lib.ReduceAll
import Idealize.ShloMosaic.PureOps.Ideal.Laws
import proofs.«123916_j51213190037917_2_alg».proof.Proof.LibRealEntries

noncomputable section

namespace Cert.Finite

open Idealize.ShloMosaic Cert.LibRealEntries Cert.Pre_finite_inputs

/-- A rank-0 array has one index. -/
instance : Subsingleton S_.Idx := ⟨fun _ _ => funext fun d => d.elim0⟩

/-- The word 0x7F800000 is +∞. -/
theorem ofBits_inf : Ideal.ofBits .f32 0x7F800000#32 = ⊤ := by simp [Ideal.ofBits, Ideal.ieee]

/-- An extended real with |x| < +∞ is real. -/
theorem real_of_abs_lt_inf (x : EReal)
    (h : Ideal.cmp .olt (max x (-x)) (Ideal.ofBits .f32 0x7F800000#32) = 1#1) : IsReal x := by
  rw [ofBits_inf] at h
  have hlt : max x (-x) < ⊤ := by
    unfold Ideal.cmp at h
    by_contra hn
    simp [hn] at h
  rw [isReal_iff]
  constructor
  · rintro rfl; simp at hlt
  · rintro rfl; simp at hlt

variable [Facts]

/-- Under the precondition every entry of the feature table is real. -/
theorem features_real (x : FVec Ideal S100000x128 .f32) (a1 : IVec S2x1600000 32) (W : FVec Ideal S128x128 .f32)
    (b : FVec Ideal S128 .f32) (h : fn (F := Ideal) x a1 W b = fun _ => 1#1) (i : S100000x128.Idx) : IsReal (x i) := by
  have h0 := congrFun h (fun d => d.elim0)
  dsimp only [fn] at h0
  obtain ⟨h8, -⟩ := IntOp.andi_eq_one.1 h0
  obtain ⟨h3, -⟩ := IntOp.andi_eq_one.1 h8
  exact real_of_abs_lt_inf (x i) (Host.reduce_andi_all _ _ _ _ _ h3 i)

end Cert.Finite

end
-- ==== Proof.lean ====
/-
  A three-hop graph convolution with symmetric normalisation followed by a linear head, computed two ways; the two
  programs agree at the extended reals on finite inputs.

  With d(n) the inverse square root of the in-degree of node n (self loops included; zero where the degree is not
  positive), both programs compute
      h₀ = x,   h_{k+1}(n, c) = Σ_{e : target e = n} h_k(source e, c) · d(source e) · d(n)   (k = 0, 1, 2),
      out(n, o) = Σ_c h₃(n, c) · W(o, c) + b(o).
  The reference weights each message by d(source) · d(target) before the segment sum. The kernel's program keeps the
  table multiplied by d, sums the gathered rows, and multiplies the sums by d; the last multiplication by d is done
  inside the dense head, block of 5000 rows by block, just before the contraction with W (whose operands are narrowed to
  bf16, which changes nothing at the extended reals).

  The two differ by where the factor d(n) stands relative to the segment sum, so they are equal by distributivity,
  applied once per hop. On the extended reals distributivity needs real entries: the precondition (every float input
  finite) makes the feature table real, the coefficient d is real whatever the indices are (a count, its guarded
  inverse square root), and each hop keeps real entries real. Indices out of range are treated alike on both sides: a
  gather wraps a negative source and clamps, a segment sum drops a target outside [0, N); a message that lands in row
  n has target n, so the reference's d(target), read through a wrapped and clamped index, is d(n) there.

  The modules: `LibGcnHop` (one hop in both arrangements, any sizes), `Propagation` (three hops and the head),
  `Sizes` (this graph's shapes), `KernelHost` / `Payload` / `Blocks` (the kernel's program: the arrays in front of the
  head, one block of the head, the output array), `RefRun` (the reference's run), `Finite` (finite inputs are real).
-/
import proofs.«123916_j51213190037917_2_alg».proof.Defs
import proofs.«123916_j51213190037917_2_alg».proof.Proof.Gen.Kernel
import proofs.«123916_j51213190037917_2_alg».proof.Proof.Gen.Kernel.Skeleton
import proofs.«123916_j51213190037917_2_alg».proof.Proof.Gen.Kernel.Launch
import proofs.«123916_j51213190037917_2_alg».proof.Proof.Gen.Kernel.Points
import proofs.«123916_j51213190037917_2_alg».proof.Proof.Gen.Kernel.Frame
import proofs.«123916_j51213190037917_2_alg».proof.Proof.Gen.KernelIdeal
import proofs.«123916_j51213190037917_2_alg».proof.Proof.Gen.KernelIdeal.Skeleton
import proofs.«123916_j51213190037917_2_alg».proof.Proof.Gen.KernelIdeal.Launch
import proofs.«123916_j51213190037917_2_alg».proof.Proof.Gen.KernelIdeal.Points
import proofs.«123916_j51213190037917_2_alg».proof.Proof.Gen.KernelIdeal.Frame
import proofs.«123916_j51213190037917_2_alg».proof.Proof.Gen.ReferenceIdeal
import proofs.«123916_j51213190037917_2_alg».proof.Proof.Gen.Pre_finite_inputs
import proofs.«123916_j51213190037917_2_alg».proof.Proof.Gen.KernelIdeal.Value
import proofs.«123916_j51213190037917_2_alg».proof.Proof.Blocks
import proofs.«123916_j51213190037917_2_alg».proof.Proof.RefRun
import proofs.«123916_j51213190037917_2_alg».proof.Proof.Finite
import Idealize.ShloMosaic.Adequacy
import Idealize.ShloMosaic.Init

noncomputable section

namespace Cert.Proof

open Idealize.ShloMosaic Idealize.ShloMosaic.TcCoe Idealize.SL.Sem

/-- The kernel's program runs and leaves its arguments alone. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments alone: its run with the result forgotten. -/
theorem frame_ri : Cert.frame_ReferenceIdeal := fun m ρ _ =>
  (θ_run Cert.ReferenceIdeal.defs _ _).mono (fun _ h c => (h c).2) (Cert.ReferenceIdeal.RunP.run m ρ)

/-- Both programs build the message sources from the edge list by the same operations … -/
theorem srcs_eq (a1 : IVec ⟨2, ![2, 1600000]⟩ 32) :
    Cert.ReferenceIdeal.RunP.srcOf a1 = Cert.KernelIdeal.HostSide.srcOf a1 := rfl

/-- … and the message targets. -/
theorem dsts_eq (a1 : IVec ⟨2, ![2, 1600000]⟩ 32) :
    Cert.ReferenceIdeal.RunP.dstOf a1 = Cert.KernelIdeal.HostSide.dstOf a1 := rfl

/-- From agreeing arguments the two programs end with the same output array: the kernel's is `out` (the scaled
    arrangement with the last factor inside the head), the reference's three weighted steps and the plain head, equal on a
    real feature table. -/
theorem algebraic : Cert.algebraic_KernelIdeal_ReferenceIdeal := by
  intro m ρ m' ρ' hpre hagree
  refine ⟨fun c => Cert.KernelIdeal.Blocks.out m c, Cert.KernelIdeal.Blocks.run m ρ, ?_⟩
  refine (θ_run Cert.ReferenceIdeal.defs _ _).mono (fun _ h c => ⟨(h c).1.trans ?_, (h c).2⟩)
    (Cert.ReferenceIdeal.RunP.run m' ρ')
  unfold Cert.ReferenceIdeal.RunP.res Cert.KernelIdeal.Blocks.out
  rw [(hagree c).1, (hagree c).2.1, (hagree c).2.2.1, (hagree c).2.2.2, srcs_eq, dsts_eq]
  exact (Cert.Propagation.out_eq Cert.Sizes.wt Cert.Sizes.wl 100000#32 Cert.Sizes.hN _
    (fun i => Cert.Finite.features_real _ _ _ _ (hpre c) i) _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
